-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S100000x256 : Shape := ⟨2, ![100000, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_

variable [Facts]

def fn {F : FTy → Type} [FloatOps F] (main_arg0 : FVec F S262144x256 .f32) (main_arg1 : FVec F S100000x256 .f32) (main_arg2 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  main_v8
-- ==== Kernel.lean ====
abbrev S262144x256 : Shape := ⟨2, ![262144, 256]⟩
abbrev S100000x256 : Shape := ⟨2, ![100000, 256]⟩
abbrev S262144 : Shape := ⟨1, ![262144]⟩
abbrev S_ : Shape := ⟨0, ![]⟩
abbrev S262144x1 : Shape := ⟨2, ![262144, 1]⟩
abbrev S1x1 : Shape := ⟨2, ![1, 1]⟩
abbrev S4096x256 : Shape := ⟨2, ![4096, 256]⟩
abbrev S4096 : Shape := ⟨1, ![4096]⟩
abbrev S4096x1 : Shape := ⟨2, ![4096, 1]⟩
abbrev S1 : Shape := ⟨1, ![1]⟩
abbrev S100000 : Shape := ⟨1, ![100000]⟩
abbrev S100000x1 : Shape := ⟨2, ![100000, 1]⟩
abbrev S2000x256 : Shape := ⟨2, ![2000, 256]⟩
abbrev S2000x1 : Shape := ⟨2, ![2000, 1]⟩

abbrev nBuf : Space → Nat
  | .hbm => 31
  | .vmem => 16
  | .smem => 0
  | _ => 0

abbrev bufTy : (tb : Table) → Fin (tcTables nBuf tb) → BufTy
  | .hbm, ⟨0, _⟩ => ⟨S262144x256, .f32⟩
  | .hbm, ⟨1, _⟩ => ⟨S100000x256, .f32⟩
  | .hbm, ⟨2, _⟩ => ⟨S262144, .i32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S262144x256, .f32⟩
  | .hbm, ⟨12, _⟩ => ⟨S262144x256, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S100000x256, .f32⟩
  | .hbm, ⟨21, _⟩ => ⟨S262144x1, .i32⟩
  | .hbm, ⟨22, _⟩ => ⟨S100000x256, .f32⟩
  | .hbm, ⟨23, _⟩ => ⟨S_, .f32⟩
  | .hbm, ⟨24, _⟩ => ⟨S262144, .f32⟩
  | .hbm, ⟨25, _⟩ => ⟨S_, .f32⟩
  | .hbm, ⟨26, _⟩ => ⟨S100000, .f32⟩
  | .hbm, ⟨27, _⟩ => ⟨S262144x1, .i32⟩
  | .hbm, ⟨28, _⟩ => ⟨S100000, .f32⟩
  | .hbm, ⟨29, _⟩ => ⟨S100000x1, .f32⟩
  | .hbm, ⟨30, _⟩ => ⟨S100000x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1x1, .f32⟩
  | .local _ .vmem, ⟨7, _⟩ => ⟨S1x1, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x1, .f32⟩
  | .local _ .vmem, ⟨13, _⟩ => ⟨S2000x1, .f32⟩
  | .local _ .vmem, ⟨14, _⟩ => ⟨S2000x256, .f32⟩
  | .local _ .vmem, ⟨15, _⟩ => ⟨S2000x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v18 : BitVec 1 := Scalar.cmpi .eq arg0 c63_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  bcast_S_S100000x256 : S_.BroadcastsInDim S100000x256 (![] : Fin 0 → Fin S100000x256.rank)
  bcast_S_S100000 : S_.BroadcastsInDim S100000 (![] : Fin 0 → Fin S100000.rank)
  shapeCasts_S100000_S100000x1 : S100000.ShapeCasts S100000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  gather_S100000x256_S262144x1_S262144x256_1_0_n_n_0_1_1256_wf : GatherDims.WF S100000x256 S262144x1 S262144x256 [1] [0] [] [0] [] 1 ![1, 256]
  scatter_S100000x256_S262144x1_S262144x256_1_0_0_1_wf : ScatterDims.WF S100000x256 S262144x1 S262144x256 [1] [0] [0] 1
  scatter_S100000_S262144x1_S262144_n_0_0_1_wf : ScatterDims.WF S100000 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S100000x256.size a
  hwx1_3 : ∀ i : grid1.Coords, EltTy.bits .f32 = 32 ∨ (Rect.block (s := S100000x256) S2000x256.size (cc1_transform_3 i) (hinb1_3 i)).WholeWords (EltTy.packing .f32)

variable [Facts₀]

def gather_S100000x256_S262144x1_S262144x256_1_0_n_n_0_1_1256 : GatherDims S100000x256 S262144x1 S262144x256 where
  offsetDims := [1]
  collapsedSliceDims := [0]
  operandBatchingDims := []
  startIndicesBatchingDims := []
  startIndexMap := [0]
  indexVectorDim := 1
  sliceSizes := ![1, 256]
  wf := gather_S100000x256_S262144x1_S262144x256_1_0_n_n_0_1_1256_wf
def scatter_S100000x256_S262144x1_S262144x256_1_0_0_1 : ScatterDims S100000x256 S262144x1 S262144x256 where
  updateWindowDims := [1]
  insertedWindowDims := [0]
  scatterDimsToOperandDims := [0]
  indexVectorDim := 1
  wf := scatter_S100000x256_S262144x1_S262144x256_1_0_0_1_wf
def scatter_S100000_S262144x1_S262144_n_0_0_1 : ScatterDims S100000 S262144x1 S262144 where
  updateWindowDims := []
  insertedWindowDims := [0]
  scatterDimsToOperandDims := [0]
  indexVectorDim := 1
  wf := scatter_S100000_S262144x1_S262144_n_0_0_1_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S4096x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x256 : Shape := ⟨2, ![262144, 256]⟩
abbrev S100000x256 : Shape := ⟨2, ![100000, 256]⟩
abbrev S262144 : Shape := ⟨1, ![262144]⟩
abbrev S_ : Shape := ⟨0, ![]⟩
abbrev S262144x1 : Shape := ⟨2, ![262144, 1]⟩
abbrev S100000 : Shape := ⟨1, ![100000]⟩
abbrev S100000x1 : Shape := ⟨2, ![100000, 1]⟩

abbrev nBuf : Space → Nat
  | .hbm => 38
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S100000x256, .f32⟩
  | .hbm, ⟨2, _⟩ => ⟨S262144, .i32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S262144x256, .f32⟩
  | .hbm, ⟨21, _⟩ => ⟨S_, .f32⟩
  | .hbm, ⟨22, _⟩ => ⟨S100000x256, .f32⟩
  | .hbm, ⟨23, _⟩ => ⟨S262144x1, .i32⟩
  | .hbm, ⟨24, _⟩ => ⟨S100000x256, .f32⟩
  | .hbm, ⟨25, _⟩ => ⟨S_, .f32⟩
  | .hbm, ⟨26, _⟩ => ⟨S262144, .f32⟩
  | .hbm, ⟨27, _⟩ => ⟨S_, .f32⟩
  | .hbm, ⟨28, _⟩ => ⟨S100000, .f32⟩
  | .hbm, ⟨29, _⟩ => ⟨S262144x1, .i32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x256, .f32⟩
  | .hbm, ⟨36, _⟩ => ⟨S100000x256, .f32⟩
  | .hbm, ⟨37, _⟩ => ⟨S100000x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x256_S_d0_1 : S262144x256.ReducesTo [0, 1] S_
  h_S_ : 0 < S_.numel
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  gather_S100000x256_S262144x1_S262144x256_1_0_n_n_0_1_1256_wf : GatherDims.WF S100000x256 S262144x1 S262144x256 [1] [0] [] [0] [] 1 ![1, 256]
  scatter_S100000x256_S262144x1_S262144x256_1_0_0_1_wf : ScatterDims.WF S100000x256 S262144x1 S262144x256 [1] [0] [0] 1
  scatter_S100000_S262144x1_S262144_n_0_0_1_wf : ScatterDims.WF S100000 S262144x1 S262144 [] [0] [0] 1

variable [Facts₀]

def gather_S100000x256_S262144x1_S262144x256_1_0_n_n_0_1_1256 : GatherDims S100000x256 S262144x1 S262144x256 where
  offsetDims := [1]
  collapsedSliceDims := [0]
  operandBatchingDims := []
  startIndicesBatchingDims := []
  startIndexMap := [0]
  indexVectorDim := 1
  sliceSizes := ![1, 256]
  wf := gather_S100000x256_S262144x1_S262144x256_1_0_n_n_0_1_1256_wf
def scatter_S100000x256_S262144x1_S262144x256_1_0_0_1 : ScatterDims S100000x256 S262144x1 S262144x256 where
  updateWindowDims := [1]
  insertedWindowDims := [0]
  scatterDimsToOperandDims := [0]
  indexVectorDim := 1
  wf := scatter_S100000x256_S262144x1_S262144x256_1_0_0_1_wf
def scatter_S100000_S262144x1_S262144_n_0_0_1 : ScatterDims S100000 S262144x1 S262144 where
  updateWindowDims := []
  insertedWindowDims := [0]
  scatterDimsToOperandDims := [0]
  indexVectorDim := 1
  wf := scatter_S100000_S262144x1_S262144_n_0_0_1_wf

class Facts : Prop extends Facts₀ where

variable [Facts]
-- ==== Proof.Kernel.DiffShared.lean ====
/-
  The first kernel region: diff = centers_batch - features on 64 row blocks of 4096 rows, and the sum of the
  squares of diff accumulated in a 1 × 1 scratch cell that lives across grid points. What the three control
  cases of the body share: the two branch conditions as propositions about the grid point (the cell is reset
  exactly at point 0; the total is copied to the second output exactly at point 63), where the second output's
  window is idle, the memrefs the body is called with, and the region's resting invariant split into the
  scratch cell, the other scoped buffers (the second region's staging buffers, untouched here) and the
  generator register.
-/
import proofs.«157468_j50319836840503_1_alg».proof.Proof.Gen.Kernel.Launch
import proofs.«157468_j50319836840503_1_alg».proof.Proof.Gen.Kernel.Skeleton
import proofs.«157468_j50319836840503_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: rows [4096 t, 4096 t + 4096) of its array as the region finds it
    (the one cell of the 1 × 1 output for window 3). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first grid point": the body's first conditional, as its scalar chain over the coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last grid point": the body's second conditional. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the body stores nothing into the 1 × 1 output: its window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-! ## The memrefs the body is called with -/

/-- One staging buffer of each output window, through which its contents are stated. -/
abbrev VO0_2 : View sig .tc .vmem S4096x256 .f32 := (Memref.whole cc0_stg2_0 : Memref sig .tc .vmem S4096x256 .f32).view
abbrev VO0_3 : View sig .tc .vmem S1x1 .f32 := (Memref.whole cc0_stg3_0 : Memref sig .tc .vmem S1x1 .f32).view
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The 1 × 1 scratch cell that carries the running sum from point to point. -/
abbrev scM0_0 : Memref sig .tc .vmem S1x1 .f32 := Memref.whole cc0_scratch0
abbrev VS0_0 : View sig .tc .vmem S1x1 .f32 := scM0_0.view

/-- The scoped buffers of the core that this region neither stages nor uses: the second region's eight staging buffers,
    each whole at some contents. They ride along untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's resting invariant: the scratch cell at some contents, the untouched scoped buffers, the generator register. -/
theorem PhiA0_eq (c : Dev nD) :
    (Pipeline.ΦA spec0 c : sProp 𝕄)
      = iprop(iprop((∃ d, owns (c : Thread nD τ) scM0_0 fullShare d) ∗ restS (F := F) c) ∗ (∃ r, prngReg c r)) := by
  unfold Pipeline.ΦA restS; rw [scopedRest0_eq]; simp only [scM0_0, owns_whole]; try rfl

end Cert.Kernel.Hand

end
-- ==== Proof.Kernel.DiffRunA.lean ====
/-
  The body of the first kernel region at the first grid point: the scratch cell is reset to zero, then the block's sum of squares is added; nothing is stored into the 1 × 1 output.
  Stated on whole staging memrefs: the two input blocks at their contents (`x0` the features block, `x1` the gathered
  centers block) are left as they were; the diff output's buffer, whatever it held, ends with the listed pieces
  written (one whole-block store of centers - features); the scratch cell ends with its pieces written. The piece
  lists are what running the body finds.
-/
import proofs.«157468_j50319836840503_1_alg».proof.Proof.Kernel.DiffShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the diff output's buffer (`L2`), in the 1 × 1 output's (`L3`) and in the scratch cell
    (`LS0`), last store first, with the proof that the body runs to them. -/
noncomputable def kernelRun0_A (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) :
    Σ' (L2 : List (View.Piece (Elt F) S4096x256 .f32)) (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc0__diff_loss_kernel i arg1 harg1 arg2 harg2 arg3 harg3 arg4 harg4 arg5 harg5) K } := by
  refine ⟨?_, [], ?_, fun (xi3 : Vec F S1x1 .f32) E K => ?run⟩
  case run =>
    simp only [cc0__diff_loss_kernel_eq_skeleton]; unfold cc0__diff_loss_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

end Cert.Kernel.Hand

end
-- ==== Proof.Kernel.DiffRunB.lean ====
/-
  The body of the first kernel region at a grid point that is neither first nor last: the block's sum of squares is added to what the point before left in the scratch cell; nothing is stored into the 1 × 1 output.
  Stated on whole staging memrefs: the two input blocks at their contents (`x0` the features block, `x1` the gathered
  centers block) are left as they were; the diff output's buffer, whatever it held, ends with the listed pieces
  written (one whole-block store of centers - features); the scratch cell ends with its pieces written. The piece
  lists are what running the body finds.
-/
import proofs.«157468_j50319836840503_1_alg».proof.Proof.Kernel.DiffShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the diff output's buffer (`L2`), in the 1 × 1 output's (`L3`) and in the scratch cell
    (`LS0`), last store first, with the proof that the body runs to them. -/
noncomputable def kernelRun0_B (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) :
    Σ' (L2 : List (View.Piece (Elt F) S4096x256 .f32)) (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc0__diff_loss_kernel i arg1 harg1 arg2 harg2 arg3 harg3 arg4 harg4 arg5 harg5) K } := by
  refine ⟨?_, [], ?_, fun (xi3 : Vec F S1x1 .f32) E K => ?run⟩
  case run =>
    simp only [cc0__diff_loss_kernel_eq_skeleton]; unfold cc0__diff_loss_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

end Cert.Kernel.Hand

end
-- ==== Proof.Kernel.DiffRunC.lean ====
/-
  The body of the first kernel region at the last grid point: the block's sum of squares is added to what the point before left in the scratch cell, and the cell's new contents are stored into the 1 × 1 output.
  Stated on whole staging memrefs: the two input blocks at their contents (`x0` the features block, `x1` the gathered
  centers block) are left as they were; the diff output's buffer, whatever it held, ends with the listed pieces
  written (one whole-block store of centers - features); the scratch cell ends with its pieces written. The piece
  lists are what running the body finds.
-/
import proofs.«157468_j50319836840503_1_alg».proof.Proof.Kernel.DiffShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the diff output's buffer (`L2`), in the 1 × 1 output's (`L3`) and in the scratch cell
    (`LS0`), last store first, with the proof that the body runs to them. -/
noncomputable def kernelRun0_C (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) :
    Σ' (L2 : List (View.Piece (Elt F) S4096x256 .f32)) (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__diff_loss_kernel i arg1 harg1 arg2 harg2 arg3 harg3 arg4 harg4 arg5 harg5) K } := by
  refine ⟨?_, ?_, ?_, fun E K => ?run⟩
  case run =>
    simp only [cc0__diff_loss_kernel_eq_skeleton]; unfold cc0__diff_loss_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.Kernel.Hand

end
-- ==== Proof.Kernel.DiffBody.lean ====
/-
  The first kernel region, point by point. After the body at grid point n the diff output's buffer holds
  centers_batch - features on the point's block; the scratch cell holds the sum of squares accumulated over the
  blocks 0 … n (the cell is reset at point 0, so it never depends on what it held before the region); the 1 × 1
  output's buffer holds that total at the last point and is left alone before. The recursion `outsAt0` names
  these three contents; the invariant `PhiS` keeps the scratch cell at the recursion's value between points;
  the proof data and the body obligation follow.
-/
import proofs.«157468_j50319836840503_1_alg».proof.Proof.Kernel.DiffRunA
import proofs.«157468_j50319836840503_1_alg».proof.Proof.Kernel.DiffRunB
import proofs.«157468_j50319836840503_1_alg».proof.Proof.Kernel.DiffRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Case A -/

/-- The one whole-block store covers the diff output's block. -/
theorem cover0_A_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) (y : S4096x256.Idx) :
    ∃ pc ∈ (kernelRun0_A c i arg1 harg1 arg2 harg2 arg3 harg3 arg4 harg4 arg5 harg5 hc0 hc1 x0 x1).1, y ∈ pc.1.set :=
  View.cover_of_tiledL (kernelRun0_A c i arg1 harg1 arg2 harg2 arg3 harg3 arg4 harg4 arg5 harg5 hc0 hc1 x0 x1).1 S4096x256.size (by sl_kernel_rfl) y

/-- What the case leaves in the diff output's staging buffer. -/
def out0_A_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) : Vec F S4096x256 .f32 :=
  VO0_2.read (Elt F) (VO0_2.writes (Elt F) VO0_2.junk (kernelRun0_A c i arg1 harg1 arg2 harg2 arg3 harg3 arg4 harg4 arg5 harg5 hc0 hc1 x0 x1).1)

/-- What the case leaves in the 1 × 1 output's staging buffer (nothing is stored: a placeholder no one reads, the window being idle and not written back). -/
def out0_A_3 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) : Vec F S1x1 .f32 :=
  VO0_3.read (Elt F) (VO0_3.writes (Elt F) VO0_3.junk (kernelRun0_A c i arg1 harg1 arg2 harg2 arg3 harg3 arg4 harg4 arg5 harg5 hc0 hc1 x0 x1).2.1)

/-- The case's stores into the scratch cell cover it. -/
theorem scover0_A_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) (y : S1x1.Idx) :
    ∃ pc ∈ (kernelRun0_A c i arg1 harg1 arg2 harg2 arg3 harg3 arg4 harg4 arg5 harg5 hc0 hc1 x0 x1).2.2.1, y ∈ pc.1.set :=
  View.cover_of_tiledL (kernelRun0_A c i arg1 harg1 arg2 harg2 arg3 harg3 arg4 harg4 arg5 harg5 hc0 hc1 x0 x1).2.2.1 S1x1.size (by sl_kernel_rfl) y

/-- What the case leaves in the scratch cell. -/
def sout0_A_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) : Vec F S1x1 .f32 :=
  VS0_0.read (Elt F) (VS0_0.writes (Elt F) VS0_0.junk (kernelRun0_A c i arg1 harg1 arg2 harg2 arg3 harg3 arg4 harg4 arg5 harg5 hc0 hc1 x0 x1).2.2.1)

/-! ## Case B -/

/-- The one whole-block store covers the diff output's block. -/
theorem cover0_B_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) (y : S4096x256.Idx) :
    ∃ pc ∈ (kernelRun0_B c i arg1 harg1 arg2 harg2 arg3 harg3 arg4 harg4 arg5 harg5 hc0 hc1 x0 x1 xs0).1, y ∈ pc.1.set :=
  View.cover_of_tiledL (kernelRun0_B c i arg1 harg1 arg2 harg2 arg3 harg3 arg4 harg4 arg5 harg5 hc0 hc1 x0 x1 xs0).1 S4096x256.size (by sl_kernel_rfl) y

/-- What the case leaves in the diff output's staging buffer. -/
def out0_B_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) : Vec F S4096x256 .f32 :=
  VO0_2.read (Elt F) (VO0_2.writes (Elt F) VO0_2.junk (kernelRun0_B c i arg1 harg1 arg2 harg2 arg3 harg3 arg4 harg4 arg5 harg5 hc0 hc1 x0 x1 xs0).1)

/-- What the case leaves in the 1 × 1 output's staging buffer (nothing is stored: a placeholder no one reads, the window being idle and not written back). -/
def out0_B_3 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) : Vec F S1x1 .f32 :=
  VO0_3.read (Elt F) (VO0_3.writes (Elt F) VO0_3.junk (kernelRun0_B c i arg1 harg1 arg2 harg2 arg3 harg3 arg4 harg4 arg5 harg5 hc0 hc1 x0 x1 xs0).2.1)

/-- The case's stores into the scratch cell cover it. -/
theorem scover0_B_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) (y : S1x1.Idx) :
    ∃ pc ∈ (kernelRun0_B c i arg1 harg1 arg2 harg2 arg3 harg3 arg4 harg4 arg5 harg5 hc0 hc1 x0 x1 xs0).2.2.1, y ∈ pc.1.set :=
  View.cover_of_tiledL (kernelRun0_B c i arg1 harg1 arg2 harg2 arg3 harg3 arg4 harg4 arg5 harg5 hc0 hc1 x0 x1 xs0).2.2.1 S1x1.size (by sl_kernel_rfl) y

/-- What the case leaves in the scratch cell. -/
def sout0_B_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 x1 xs0).2.2.1)

/-! ## Case C -/

/-- The one whole-block store covers the diff output's block. -/
theorem cover0_C_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) (y : S4096x256.Idx) :
    ∃ pc ∈ (kernelRun0_C c i arg1 harg1 arg2 harg2 arg3 harg3 arg4 harg4 arg5 harg5 hc0 hc1 x0 x1 xs0).1, y ∈ pc.1.set :=
  View.cover_of_tiledL (kernelRun0_C c i arg1 harg1 arg2 harg2 arg3 harg3 arg4 harg4 arg5 harg5 hc0 hc1 x0 x1 xs0).1 S4096x256.size (by sl_kernel_rfl) y

/-- What the case leaves in the diff output's staging buffer. -/
def out0_C_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) : Vec F S4096x256 .f32 :=
  VO0_2.read (Elt F) (VO0_2.writes (Elt F) VO0_2.junk (kernelRun0_C c i arg1 harg1 arg2 harg2 arg3 harg3 arg4 harg4 arg5 harg5 hc0 hc1 x0 x1 xs0).1)

/-- The store of the total covers the 1 × 1 output. -/
theorem cover0_C_3 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) (y : S1x1.Idx) :
    ∃ pc ∈ (kernelRun0_C c i arg1 harg1 arg2 harg2 arg3 harg3 arg4 harg4 arg5 harg5 hc0 hc1 x0 x1 xs0).2.1, y ∈ pc.1.set :=
  View.cover_of_tiledL (kernelRun0_C c i arg1 harg1 arg2 harg2 arg3 harg3 arg4 harg4 arg5 harg5 hc0 hc1 x0 x1 xs0).2.1 S1x1.size (by sl_kernel_rfl) y

/-- What the case leaves in the 1 × 1 output's staging buffer. -/
def out0_C_3 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc0 hc1 x0 x1 xs0).2.1)

/-- The case's stores into the scratch cell cover it. -/
theorem scover0_C_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) (y : S1x1.Idx) :
    ∃ pc ∈ (kernelRun0_C c i arg1 harg1 arg2 harg2 arg3 harg3 arg4 harg4 arg5 harg5 hc0 hc1 x0 x1 xs0).2.2.1, y ∈ pc.1.set :=
  View.cover_of_tiledL (kernelRun0_C c i arg1 harg1 arg2 harg2 arg3 harg3 arg4 harg4 arg5 harg5 hc0 hc1 x0 x1 xs0).2.2.1 S1x1.size (by sl_kernel_rfl) y

/-- What the case leaves in the scratch cell. -/
def sout0_C_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 x1 xs0).2.2.1)

variable (V : (c : Dev nD) → (b : Ref sig .tc) → Buf (Elt F) ((c : Thread nD τ).loc b))

/-! ## What the outputs and the scratch cell hold after each point -/

/-- A point after the first is not the first. -/
theorem not_first (n : ℕ) (hn : n + 1 < cfg0.N) : ¬cond0_0 (grid0.coords ⟨n + 1, hn⟩) := fun h => by
  have h' := (hcond0_0 ⟨n + 1, hn⟩).mp h
  have hN : n + 1 < 64 := lt_of_lt_of_eq hn (show cfg0.N = 64 from N_0)
  (try dsimp only at h'); omega

/-- The first point is not the last. -/
theorem first_not_last (hn : 0 < cfg0.N) : ¬cond0_1 (grid0.coords ⟨0, hn⟩) := fun h => by
  have h' := (hcond0_1 ⟨0, hn⟩).mp h
  (try dsimp only at h'); omega

/-- THE ACCUMULATION: (diff output's buffer, 1 × 1 output's buffer, scratch cell) after the body at position `n`: the
    case the point is in, run on the point's memrefs and input blocks, the scratch cell entered at what position `n - 1` left. -/
def outsAt0 (c : Dev nD) : (n : ℕ) → n < cfg0.N → Vec F S4096x256 .f32 × Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (first_not_last hn) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (first_not_last hn) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (first_not_last hn) (iblk0 V c 0 ⟨0, hn⟩) (iblk0 V c 1 ⟨0, hn⟩))
  | n + 1, hn =>
    if h1 : (n + 1) % 64 = 63 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) ((hcond0_1 ⟨n + 1, hn⟩).mpr h1) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) ((hcond0_1 ⟨n + 1, hn⟩).mpr h1) (iblk0 V c 0 ⟨n + 1, hn⟩) (iblk0 V c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) ((hcond0_1 ⟨n + 1, hn⟩).mpr h1) (iblk0 V c 0 ⟨n + 1, hn⟩) (iblk0 V c 1 ⟨n + 1, hn⟩) (outsAt0 c n (Nat.lt_of_succ_lt hn)).2.2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) (fun h => h1 ((hcond0_1 ⟨n + 1, hn⟩).mp h)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) (fun h => h1 ((hcond0_1 ⟨n + 1, hn⟩).mp h)) (iblk0 V c 0 ⟨n + 1, hn⟩) (iblk0 V c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) (fun h => h1 ((hcond0_1 ⟨n + 1, hn⟩).mp h)) (iblk0 V c 0 ⟨n + 1, hn⟩) (iblk0 V c 1 ⟨n + 1, hn⟩) (outsAt0 c n (Nat.lt_of_succ_lt hn)).2.2)

/-- A point that is not the first. -/
theorem not_first' (t : Fin cfg0.N) (hz : t.val ≠ 0) : ¬cond0_0 (grid0.coords t) := fun h => by
  have h' := (hcond0_0 t).mp h
  have hN : t.val < 64 := lt_of_lt_of_eq t.isLt (show cfg0.N = 64 from N_0)
  omega

theorem outsAt0_A (c : Dev nD) (t : Fin cfg0.N) (hz : t.val = 0) (h0 : cond0_0 (grid0.coords t)) (h1 : ¬cond0_1 (grid0.coords t)) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t)) := by
  obtain ⟨n, hn⟩ := t
  cases n with
  | zero => rfl
  | succ n => exact absurd hz (Nat.succ_ne_zero n)

theorem outsAt0_B (c : Dev nD) (t : Fin cfg0.N) (hz : t.val ≠ 0) (h0 : ¬cond0_0 (grid0.coords t)) (h1 : ¬cond0_1 (grid0.coords t)) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2) := by
  obtain ⟨n, hn⟩ := t
  cases n with
  | zero => exact absurd rfl hz
  | succ n => exact (dif_neg (fun h => h1 ((hcond0_1 ⟨n + 1, hn⟩).mpr h))).trans rfl

theorem outsAt0_C (c : Dev nD) (t : Fin cfg0.N) (hz : t.val ≠ 0) (h0 : ¬cond0_0 (grid0.coords t)) (h1 : cond0_1 (grid0.coords t)) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2) := by
  obtain ⟨n, hn⟩ := t
  cases n with
  | zero => exact absurd rfl hz
  | succ n => exact (dif_pos ((hcond0_1 ⟨n + 1, hn⟩).mp h1)).trans rfl

/-- The region's invariant before position `n`: before the first point the resting one (the scratch cell at anything);
    afterwards the scratch cell at what the point before left in it, the untouched scoped buffers, the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restS (F := F) c) ∗ (∃ r, prngReg c r)) := by
  cases n with
  | zero => exact absurd rfl hz
  | succ n => rfl

/-! ## The region's proof data -/

/-- The arrays as the region finds them; after the body at point `t` each input window's buffer at its block, the outputs'
    at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]; try rfl
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]; try rfl
theorem leaves0_2 (c : Dev nD) (t : Fin cfg0.N) : (dat0 V c).leavesExact 2 t = owns (c : Thread nD τ) (ms0_2 t) fullShare ((outsAt0 V c t.val t.isLt).1) := by
  unfold Dat.leavesExact; rw [liveAt0_2 t, after0_2]; try rfl

set_option maxHeartbeats 4800000 in
/-- The body at any point: the inputs' memrefs hold their blocks; the closed forms of the two conditions say which case
    the point is in; the invariant hands the body the scratch cell at what the point before left (at anything at the first
    point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 64 := lt_of_lt_of_eq t.isLt (show cfg0.N = 64 from N_0)
  by_cases hz : t.val = 0
  · have h0 : cond0_0 (grid0.coords t) := (hcond0_0 t).mpr (by omega)
    have h1 : ¬cond0_1 (grid0.coords t) := fun h => by have := (hcond0_1 t).mp h; omega
    rw [Dat.leavesExact_idle (dat0 V c) 3 t (idleAt0_3 t h1) (noFlush0_3 t h1)]
    rw [outsAt0_A V c t hz h0 h1]
    unfold out0_A_2 sout0_A_0; (try dsimp only)
    rw [PhiS_castSucc V c t, PhiS_zero V c _ _ hz, PhiA0_eq]
    iintro ⟨⟨⟨HS0, Hrest⟩, Hg⟩, Ho, ⟨%d0, H0⟩, ⟨%d1, H1⟩, ⟨%d2, H2⟩, ⟨%d3, H3⟩⟩
    iapply ((kernelRun0_A c (grid0.coords t) _ _ _ _ _ _ _ _ _ _ h0 h1 (iblk0 V c 0 t) (iblk0 V c 1 t)).2.2.2 _ Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, H3, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _)
    iexists _; iexact H3
  · have h0 : ¬cond0_0 (grid0.coords t) := not_first' t hz
    by_cases h1 : cond0_1 (grid0.coords t)
    · rw [show (dat0 V c).leavesExact 3 t = owns (c : Thread nD τ) (ms0_3 t) fullShare ((dat0 V c).after 3 t) from by
        unfold Dat.leavesExact; rw [liveAt0_3 t h1], after0_3]
      rw [outsAt0_C V c t hz h0 h1]
      unfold out0_C_2 out0_C_3 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ h0 h1 (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [Dat.leavesExact_idle (dat0 V c) 3 t (idleAt0_3 t h1) (noFlush0_3 t h1)]
      rw [outsAt0_B V c t hz h0 h1]
      unfold out0_B_2 sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ h0 h1 (iblk0 V c 0 t) (iblk0 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _)
      iexists _; iexact H3

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the resting one back: the scratch cell's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.Kernel.UpdateBody.lean ====
/-
  The second kernel region, new_centers = centers - update / (counts + 1), on 50 row blocks of 2000 rows.
  At a grid point the body reads three input blocks (rows [2000 t, 2000 t + 2000) of centers, of the
  scattered update and of the counts column) and stores ONE value into the output block: the pointwise
  term `k1_pay1` of the three blocks. This module states that as the body's triple, gives the region's
  proof data (each input window's buffer holds its block, the output window's buffer the stored term,
  nothing carried from point to point) and discharges the body obligation at every point. Everything is
  stated for ANY buffer contents `V` at the region's entry, so that the host operations before the
  region are never unfolded here.
-/
import proofs.«157468_j50319836840503_1_alg».proof.Proof.Gen.Kernel.Launch
import proofs.«157468_j50319836840503_1_alg».proof.Proof.Gen.Kernel.Skeleton
import proofs.«157468_j50319836840503_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: rows [2000 t, 2000 t + 2000) of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whatever the proof data,
    as long as the array is `V`'s and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 2000 × 256 block and the whole 2000 × 1 column, as the rectangles the body loads and stores through. -/
abbrev rU : Rect S2000x256 := Rect.unit (s := S2000x256) ![0, 0] S2000x256.size inb_S2000x256_S2000x256_0_0
abbrev rUc : Rect S2000x1 := Rect.unit (s := S2000x1) ![0, 0] S2000x1.size inb_S2000x1_S2000x1_0_0

/-- What the body leaves in the output window's buffer: its one store, of the pointwise term of the three input blocks
    (`x0` the centers block, `x1` the update block, `x2` the counts column). -/
def outU (x0 x1 : Vec F S2000x256 .f32) (x2 : Vec F S2000x1 .f32) : Vec F S2000x256 .f32 :=
  View.canon [⟨rU, k1_pay1 (View.ld x2 rUc) (View.ld x0 rU) (View.ld x1 rU)⟩]

/-- The one store covers the output block. -/
theorem coverU (p0 : Vec F S2000x256 .f32) (y : S2000x256.Idx) :
    ∃ pc ∈ ([⟨rU, p0⟩] : List (View.Piece (Elt F) S2000x256 .f32)), y ∈ pc.1.set :=
  View.cover_of_tiled [⟨rU, p0⟩] S2000x256.size (by rfl) y

set_option maxHeartbeats 1000000 in
/-- The body on whole staging memrefs: the inputs' buffers are left as they were and the output's buffer, whatever it held,
    ends at `outU` of the inputs. -/
theorem sound_kernelU (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole) (arg4 : Memref sig .tc .vmem S2000x256 .f32) (harg4 : arg4.IsWhole)
    (x0 x1 : Vec F S2000x256 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outU x0 x1 x2)) -∗ K ⟨⟩))
      ⊢ wp frame (wpE (defs₀ (F := F)) Variants.none c none) E (cc1__update_kernel i arg1 harg1 arg2 harg2 arg3 harg3 arg4 harg4) K := by
  simp only [cc1__update_kernel_eq_skeleton]; unfold cc1__update_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverU _)

/-- The region's proof data on core `c`: the arrays as the region finds them; after the body at point `t` each input
    window's buffer at its block and the output's at `outU` of the three blocks; nothing carried between points;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outU (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outU (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernelU c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The whole program's run. @main is four items: the host operations that gather centers_batch, the first kernel
  region, the host operations that scale the loss and scatter-add the update and the counts, the second kernel
  region. The buffer contents at each boundary are a fold from the launch memory: a host stretch applies its
  operations; a region replaces its windows' arrays by what its write-backs leave and keeps every other buffer.
  Each region is a record around the thread state "every unscoped buffer at the boundary's contents"; the run's
  post reads every unscoped buffer of the final memory at the last boundary's contents `W4`, from which the
  results and the unchanged arguments are read.
-/
import proofs.«157468_j50319836840503_1_alg».proof.Proof.Gen.Kernel.Launch
import proofs.«157468_j50319836840503_1_alg».proof.Proof.Gen.Kernel.Skeleton
import proofs.«157468_j50319836840503_1_alg».proof.Proof.Gen.Kernel.Points
import proofs.«157468_j50319836840503_1_alg».proof.Proof.Gen.Kernel.Regions
import proofs.«157468_j50319836840503_1_alg».proof.Proof.Kernel.DiffBody
import proofs.«157468_j50319836840503_1_alg».proof.Proof.Kernel.UpdateBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- A buffer no operation of the first host stretch writes is as launched after it; likewise the second stretch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (U3 m ρ) c).arrAt_in 0 rfl _).trans (A_eq1 (U3 m ρ) c 0))
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m ρ) c)
    unfold Pipeline.ΦA
    iintro ⟨Hp, -, Hr⟩
    isplitl [Hr]; · iexact Hr
    iexact Hp
  hout c := by
    rw [Pipeline.ownSems0_none]
    refine (hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.KernelIdeal.DiffShared.lean ====
/-
  The first kernel region: diff = centers_batch - features on 64 row blocks of 4096 rows, and the sum of the
  squares of diff accumulated in a 1 × 1 scratch cell that lives across grid points. What the three control
  cases of the body share: the two branch conditions as propositions about the grid point (the cell is reset
  exactly at point 0; the total is copied to the second output exactly at point 63), where the second output's
  window is idle, the memrefs the body is called with, and the region's resting invariant split into the
  scratch cell, the other scoped buffers (the second region's staging buffers, untouched here) and the
  generator register.
-/
import proofs.«157468_j50319836840503_1_alg».proof.Proof.Gen.KernelIdeal.Launch
import proofs.«157468_j50319836840503_1_alg».proof.Proof.Gen.KernelIdeal.Skeleton
import proofs.«157468_j50319836840503_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: rows [4096 t, 4096 t + 4096) of its array as the region finds it
    (the one cell of the 1 × 1 output for window 3). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first grid point": the body's first conditional, as its scalar chain over the coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last grid point": the body's second conditional. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the body stores nothing into the 1 × 1 output: its window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-! ## The memrefs the body is called with -/

/-- One staging buffer of each output window, through which its contents are stated. -/
abbrev VO0_2 : View sig .tc .vmem S4096x256 .f32 := (Memref.whole cc0_stg2_0 : Memref sig .tc .vmem S4096x256 .f32).view
abbrev VO0_3 : View sig .tc .vmem S1x1 .f32 := (Memref.whole cc0_stg3_0 : Memref sig .tc .vmem S1x1 .f32).view
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The 1 × 1 scratch cell that carries the running sum from point to point. -/
abbrev scM0_0 : Memref sig .tc .vmem S1x1 .f32 := Memref.whole cc0_scratch0
abbrev VS0_0 : View sig .tc .vmem S1x1 .f32 := scM0_0.view

/-- The scoped buffers of the core that this region neither stages nor uses: the second region's eight staging buffers,
    each whole at some contents. They ride along untouched. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's resting invariant: the scratch cell at some contents, the untouched scoped buffers, the generator register. -/
theorem PhiA0_eq (c : Dev nD) :
    (Pipeline.ΦA spec0 c : sProp 𝕄)
      = iprop(iprop((∃ d, owns (c : Thread nD τ) scM0_0 fullShare d) ∗ restS (F := F) c) ∗ (∃ r, prngReg c r)) := by
  unfold Pipeline.ΦA restS; rw [scopedRest0_eq]; simp only [scM0_0, owns_whole]; try rfl

end Cert.KernelIdeal.Hand

end
-- ==== Proof.KernelIdeal.DiffRunA.lean ====
/-
  The body of the first kernel region at the first grid point: the scratch cell is reset to zero, then the block's sum of squares is added; nothing is stored into the 1 × 1 output.
  Stated on whole staging memrefs: the two input blocks at their contents (`x0` the features block, `x1` the gathered
  centers block) are left as they were; the diff output's buffer, whatever it held, ends with the listed pieces
  written (one whole-block store of centers - features); the scratch cell ends with its pieces written. The piece
  lists are what running the body finds.
-/
import proofs.«157468_j50319836840503_1_alg».proof.Proof.KernelIdeal.DiffShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the diff output's buffer (`L2`), in the 1 × 1 output's (`L3`) and in the scratch cell
    (`LS0`), last store first, with the proof that the body runs to them. -/
noncomputable def kernelRun0_A (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) :
    Σ' (L2 : List (View.Piece (Elt F) S4096x256 .f32)) (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc0__diff_loss_kernel i arg1 harg1 arg2 harg2 arg3 harg3 arg4 harg4 arg5 harg5) K } := by
  refine ⟨?_, [], ?_, fun (xi3 : Vec F S1x1 .f32) E K => ?run⟩
  case run =>
    simp only [cc0__diff_loss_kernel_eq_skeleton]; unfold cc0__diff_loss_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

end Cert.KernelIdeal.Hand

end
-- ==== Proof.KernelIdeal.DiffRunB.lean ====
/-
  The body of the first kernel region at a grid point that is neither first nor last: the block's sum of squares is added to what the point before left in the scratch cell; nothing is stored into the 1 × 1 output.
  Stated on whole staging memrefs: the two input blocks at their contents (`x0` the features block, `x1` the gathered
  centers block) are left as they were; the diff output's buffer, whatever it held, ends with the listed pieces
  written (one whole-block store of centers - features); the scratch cell ends with its pieces written. The piece
  lists are what running the body finds.
-/
import proofs.«157468_j50319836840503_1_alg».proof.Proof.KernelIdeal.DiffShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the diff output's buffer (`L2`), in the 1 × 1 output's (`L3`) and in the scratch cell
    (`LS0`), last store first, with the proof that the body runs to them. -/
noncomputable def kernelRun0_B (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) :
    Σ' (L2 : List (View.Piece (Elt F) S4096x256 .f32)) (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS0)) -∗ K ⟨⟩))
          ⊢ wp frame (wpE (defs₀ (F := F)) Variants.none c none) E (cc0__diff_loss_kernel i arg1 harg1 arg2 harg2 arg3 harg3 arg4 harg4 arg5 harg5) K } := by
  refine ⟨?_, [], ?_, fun (xi3 : Vec F S1x1 .f32) E K => ?run⟩
  case run =>
    simp only [cc0__diff_loss_kernel_eq_skeleton]; unfold cc0__diff_loss_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

end Cert.KernelIdeal.Hand

end
-- ==== Proof.KernelIdeal.DiffRunC.lean ====
/-
  The body of the first kernel region at the last grid point: the block's sum of squares is added to what the point before left in the scratch cell, and the cell's new contents are stored into the 1 × 1 output.
  Stated on whole staging memrefs: the two input blocks at their contents (`x0` the features block, `x1` the gathered
  centers block) are left as they were; the diff output's buffer, whatever it held, ends with the listed pieces
  written (one whole-block store of centers - features); the scratch cell ends with its pieces written. The piece
  lists are what running the body finds.
-/
import proofs.«157468_j50319836840503_1_alg».proof.Proof.KernelIdeal.DiffShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the diff output's buffer (`L2`), in the 1 × 1 output's (`L3`) and in the scratch cell
    (`LS0`), last store first, with the proof that the body runs to them. -/
noncomputable def kernelRun0_C (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) :
    Σ' (L2 : List (View.Piece (Elt F) S4096x256 .f32)) (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ owns (c : Thread nD τ) arg5 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0__diff_loss_kernel i arg1 harg1 arg2 harg2 arg3 harg3 arg4 harg4 arg5 harg5) K } := by
  refine ⟨?_, ?_, ?_, fun E K => ?run⟩
  case run =>
    simp only [cc0__diff_loss_kernel_eq_skeleton]; unfold cc0__diff_loss_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.KernelIdeal.Hand

end
-- ==== Proof.KernelIdeal.DiffBody.lean ====
/-
  The first kernel region, point by point. After the body at grid point n the diff output's buffer holds
  centers_batch - features on the point's block; the scratch cell holds the sum of squares accumulated over the
  blocks 0 … n (the cell is reset at point 0, so it never depends on what it held before the region); the 1 × 1
  output's buffer holds that total at the last point and is left alone before. The recursion `outsAt0` names
  these three contents; the invariant `PhiS` keeps the scratch cell at the recursion's value between points;
  the proof data and the body obligation follow.
-/
import proofs.«157468_j50319836840503_1_alg».proof.Proof.KernelIdeal.DiffRunA
import proofs.«157468_j50319836840503_1_alg».proof.Proof.KernelIdeal.DiffRunB
import proofs.«157468_j50319836840503_1_alg».proof.Proof.KernelIdeal.DiffRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Case A -/

/-- The one whole-block store covers the diff output's block. -/
theorem cover0_A_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) (y : S4096x256.Idx) :
    ∃ pc ∈ (kernelRun0_A c i arg1 harg1 arg2 harg2 arg3 harg3 arg4 harg4 arg5 harg5 hc0 hc1 x0 x1).1, y ∈ pc.1.set :=
  View.cover_of_tiledL (kernelRun0_A c i arg1 harg1 arg2 harg2 arg3 harg3 arg4 harg4 arg5 harg5 hc0 hc1 x0 x1).1 S4096x256.size (by sl_kernel_rfl) y

/-- What the case leaves in the diff output's staging buffer. -/
def out0_A_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) : Vec F S4096x256 .f32 :=
  VO0_2.read (Elt F) (VO0_2.writes (Elt F) VO0_2.junk (kernelRun0_A c i arg1 harg1 arg2 harg2 arg3 harg3 arg4 harg4 arg5 harg5 hc0 hc1 x0 x1).1)

/-- What the case leaves in the 1 × 1 output's staging buffer (nothing is stored: a placeholder no one reads, the window being idle and not written back). -/
def out0_A_3 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) : Vec F S1x1 .f32 :=
  VO0_3.read (Elt F) (VO0_3.writes (Elt F) VO0_3.junk (kernelRun0_A c i arg1 harg1 arg2 harg2 arg3 harg3 arg4 harg4 arg5 harg5 hc0 hc1 x0 x1).2.1)

/-- The case's stores into the scratch cell cover it. -/
theorem scover0_A_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) (y : S1x1.Idx) :
    ∃ pc ∈ (kernelRun0_A c i arg1 harg1 arg2 harg2 arg3 harg3 arg4 harg4 arg5 harg5 hc0 hc1 x0 x1).2.2.1, y ∈ pc.1.set :=
  View.cover_of_tiledL (kernelRun0_A c i arg1 harg1 arg2 harg2 arg3 harg3 arg4 harg4 arg5 harg5 hc0 hc1 x0 x1).2.2.1 S1x1.size (by sl_kernel_rfl) y

/-- What the case leaves in the scratch cell. -/
def sout0_A_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) : Vec F S1x1 .f32 :=
  VS0_0.read (Elt F) (VS0_0.writes (Elt F) VS0_0.junk (kernelRun0_A c i arg1 harg1 arg2 harg2 arg3 harg3 arg4 harg4 arg5 harg5 hc0 hc1 x0 x1).2.2.1)

/-! ## Case B -/

/-- The one whole-block store covers the diff output's block. -/
theorem cover0_B_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) (y : S4096x256.Idx) :
    ∃ pc ∈ (kernelRun0_B c i arg1 harg1 arg2 harg2 arg3 harg3 arg4 harg4 arg5 harg5 hc0 hc1 x0 x1 xs0).1, y ∈ pc.1.set :=
  View.cover_of_tiledL (kernelRun0_B c i arg1 harg1 arg2 harg2 arg3 harg3 arg4 harg4 arg5 harg5 hc0 hc1 x0 x1 xs0).1 S4096x256.size (by sl_kernel_rfl) y

/-- What the case leaves in the diff output's staging buffer. -/
def out0_B_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) : Vec F S4096x256 .f32 :=
  VO0_2.read (Elt F) (VO0_2.writes (Elt F) VO0_2.junk (kernelRun0_B c i arg1 harg1 arg2 harg2 arg3 harg3 arg4 harg4 arg5 harg5 hc0 hc1 x0 x1 xs0).1)

/-- What the case leaves in the 1 × 1 output's staging buffer (nothing is stored: a placeholder no one reads, the window being idle and not written back). -/
def out0_B_3 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) : Vec F S1x1 .f32 :=
  VO0_3.read (Elt F) (VO0_3.writes (Elt F) VO0_3.junk (kernelRun0_B c i arg1 harg1 arg2 harg2 arg3 harg3 arg4 harg4 arg5 harg5 hc0 hc1 x0 x1 xs0).2.1)

/-- The case's stores into the scratch cell cover it. -/
theorem scover0_B_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) (y : S1x1.Idx) :
    ∃ pc ∈ (kernelRun0_B c i arg1 harg1 arg2 harg2 arg3 harg3 arg4 harg4 arg5 harg5 hc0 hc1 x0 x1 xs0).2.2.1, y ∈ pc.1.set :=
  View.cover_of_tiledL (kernelRun0_B c i arg1 harg1 arg2 harg2 arg3 harg3 arg4 harg4 arg5 harg5 hc0 hc1 x0 x1 xs0).2.2.1 S1x1.size (by sl_kernel_rfl) y

/-- What the case leaves in the scratch cell. -/
def sout0_B_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 x1 xs0).2.2.1)

/-! ## Case C -/

/-- The one whole-block store covers the diff output's block. -/
theorem cover0_C_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) (y : S4096x256.Idx) :
    ∃ pc ∈ (kernelRun0_C c i arg1 harg1 arg2 harg2 arg3 harg3 arg4 harg4 arg5 harg5 hc0 hc1 x0 x1 xs0).1, y ∈ pc.1.set :=
  View.cover_of_tiledL (kernelRun0_C c i arg1 harg1 arg2 harg2 arg3 harg3 arg4 harg4 arg5 harg5 hc0 hc1 x0 x1 xs0).1 S4096x256.size (by sl_kernel_rfl) y

/-- What the case leaves in the diff output's staging buffer. -/
def out0_C_2 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) : Vec F S4096x256 .f32 :=
  VO0_2.read (Elt F) (VO0_2.writes (Elt F) VO0_2.junk (kernelRun0_C c i arg1 harg1 arg2 harg2 arg3 harg3 arg4 harg4 arg5 harg5 hc0 hc1 x0 x1 xs0).1)

/-- The store of the total covers the 1 × 1 output. -/
theorem cover0_C_3 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) (y : S1x1.Idx) :
    ∃ pc ∈ (kernelRun0_C c i arg1 harg1 arg2 harg2 arg3 harg3 arg4 harg4 arg5 harg5 hc0 hc1 x0 x1 xs0).2.1, y ∈ pc.1.set :=
  View.cover_of_tiledL (kernelRun0_C c i arg1 harg1 arg2 harg2 arg3 harg3 arg4 harg4 arg5 harg5 hc0 hc1 x0 x1 xs0).2.1 S1x1.size (by sl_kernel_rfl) y

/-- What the case leaves in the 1 × 1 output's staging buffer. -/
def out0_C_3 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc0 hc1 x0 x1 xs0).2.1)

/-- The case's stores into the scratch cell cover it. -/
theorem scover0_C_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) (y : S1x1.Idx) :
    ∃ pc ∈ (kernelRun0_C c i arg1 harg1 arg2 harg2 arg3 harg3 arg4 harg4 arg5 harg5 hc0 hc1 x0 x1 xs0).2.2.1, y ∈ pc.1.set :=
  View.cover_of_tiledL (kernelRun0_C c i arg1 harg1 arg2 harg2 arg3 harg3 arg4 harg4 arg5 harg5 hc0 hc1 x0 x1 xs0).2.2.1 S1x1.size (by sl_kernel_rfl) y

/-- What the case leaves in the scratch cell. -/
def sout0_C_0 (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 x1 xs0).2.2.1)

variable (V : (c : Dev nD) → (b : Ref sig .tc) → Buf (Elt F) ((c : Thread nD τ).loc b))

/-! ## What the outputs and the scratch cell hold after each point -/

/-- A point after the first is not the first. -/
theorem not_first (n : ℕ) (hn : n + 1 < cfg0.N) : ¬cond0_0 (grid0.coords ⟨n + 1, hn⟩) := fun h => by
  have h' := (hcond0_0 ⟨n + 1, hn⟩).mp h
  have hN : n + 1 < 64 := lt_of_lt_of_eq hn (show cfg0.N = 64 from N_0)
  (try dsimp only at h'); omega

/-- The first point is not the last. -/
theorem first_not_last (hn : 0 < cfg0.N) : ¬cond0_1 (grid0.coords ⟨0, hn⟩) := fun h => by
  have h' := (hcond0_1 ⟨0, hn⟩).mp h
  (try dsimp only at h'); omega

/-- THE ACCUMULATION: (diff output's buffer, 1 × 1 output's buffer, scratch cell) after the body at position `n`: the
    case the point is in, run on the point's memrefs and input blocks, the scratch cell entered at what position `n - 1` left. -/
def outsAt0 (c : Dev nD) : (n : ℕ) → n < cfg0.N → Vec F S4096x256 .f32 × Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (first_not_last hn) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (first_not_last hn) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (first_not_last hn) (iblk0 V c 0 ⟨0, hn⟩) (iblk0 V c 1 ⟨0, hn⟩))
  | n + 1, hn =>
    if h1 : (n + 1) % 64 = 63 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) ((hcond0_1 ⟨n + 1, hn⟩).mpr h1) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) ((hcond0_1 ⟨n + 1, hn⟩).mpr h1) (iblk0 V c 0 ⟨n + 1, hn⟩) (iblk0 V c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) ((hcond0_1 ⟨n + 1, hn⟩).mpr h1) (iblk0 V c 0 ⟨n + 1, hn⟩) (iblk0 V c 1 ⟨n + 1, hn⟩) (outsAt0 c n (Nat.lt_of_succ_lt hn)).2.2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) (fun h => h1 ((hcond0_1 ⟨n + 1, hn⟩).mp h)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) (fun h => h1 ((hcond0_1 ⟨n + 1, hn⟩).mp h)) (iblk0 V c 0 ⟨n + 1, hn⟩) (iblk0 V c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) (fun h => h1 ((hcond0_1 ⟨n + 1, hn⟩).mp h)) (iblk0 V c 0 ⟨n + 1, hn⟩) (iblk0 V c 1 ⟨n + 1, hn⟩) (outsAt0 c n (Nat.lt_of_succ_lt hn)).2.2)

/-- A point that is not the first. -/
theorem not_first' (t : Fin cfg0.N) (hz : t.val ≠ 0) : ¬cond0_0 (grid0.coords t) := fun h => by
  have h' := (hcond0_0 t).mp h
  have hN : t.val < 64 := lt_of_lt_of_eq t.isLt (show cfg0.N = 64 from N_0)
  omega

theorem outsAt0_A (c : Dev nD) (t : Fin cfg0.N) (hz : t.val = 0) (h0 : cond0_0 (grid0.coords t)) (h1 : ¬cond0_1 (grid0.coords t)) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t)) := by
  obtain ⟨n, hn⟩ := t
  cases n with
  | zero => rfl
  | succ n => exact absurd hz (Nat.succ_ne_zero n)

theorem outsAt0_B (c : Dev nD) (t : Fin cfg0.N) (hz : t.val ≠ 0) (h0 : ¬cond0_0 (grid0.coords t)) (h1 : ¬cond0_1 (grid0.coords t)) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2) := by
  obtain ⟨n, hn⟩ := t
  cases n with
  | zero => exact absurd rfl hz
  | succ n => exact (dif_neg (fun h => h1 ((hcond0_1 ⟨n + 1, hn⟩).mpr h))).trans rfl

theorem outsAt0_C (c : Dev nD) (t : Fin cfg0.N) (hz : t.val ≠ 0) (h0 : ¬cond0_0 (grid0.coords t)) (h1 : cond0_1 (grid0.coords t)) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (outsAt0 V c (t.val - 1) (Nat.lt_of_le_of_lt (Nat.sub_le _ _) t.isLt)).2.2) := by
  obtain ⟨n, hn⟩ := t
  cases n with
  | zero => exact absurd rfl hz
  | succ n => exact (dif_pos ((hcond0_1 ⟨n + 1, hn⟩).mp h1)).trans rfl

/-- The region's invariant before position `n`: before the first point the resting one (the scratch cell at anything);
    afterwards the scratch cell at what the point before left in it, the untouched scoped buffers, the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ restS (F := F) c) ∗ (∃ r, prngReg c r)) := by
  cases n with
  | zero => exact absurd rfl hz
  | succ n => rfl

/-! ## The region's proof data -/

/-- The arrays as the region finds them; after the body at point `t` each input window's buffer at its block, the outputs'
    at `outsAt0`'s components; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]; try rfl
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]; try rfl
theorem leaves0_2 (c : Dev nD) (t : Fin cfg0.N) : (dat0 V c).leavesExact 2 t = owns (c : Thread nD τ) (ms0_2 t) fullShare ((outsAt0 V c t.val t.isLt).1) := by
  unfold Dat.leavesExact; rw [liveAt0_2 t, after0_2]; try rfl

set_option maxHeartbeats 4800000 in
/-- The body at any point: the inputs' memrefs hold their blocks; the closed forms of the two conditions say which case
    the point is in; the invariant hands the body the scratch cell at what the point before left (at anything at the first
    point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 64 := lt_of_lt_of_eq t.isLt (show cfg0.N = 64 from N_0)
  by_cases hz : t.val = 0
  · have h0 : cond0_0 (grid0.coords t) := (hcond0_0 t).mpr (by omega)
    have h1 : ¬cond0_1 (grid0.coords t) := fun h => by have := (hcond0_1 t).mp h; omega
    rw [Dat.leavesExact_idle (dat0 V c) 3 t (idleAt0_3 t h1) (noFlush0_3 t h1)]
    rw [outsAt0_A V c t hz h0 h1]
    unfold out0_A_2 sout0_A_0; (try dsimp only)
    rw [PhiS_castSucc V c t, PhiS_zero V c _ _ hz, PhiA0_eq]
    iintro ⟨⟨⟨HS0, Hrest⟩, Hg⟩, Ho, ⟨%d0, H0⟩, ⟨%d1, H1⟩, ⟨%d2, H2⟩, ⟨%d3, H3⟩⟩
    iapply ((kernelRun0_A c (grid0.coords t) _ _ _ _ _ _ _ _ _ _ h0 h1 (iblk0 V c 0 t) (iblk0 V c 1 t)).2.2.2 _ Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, H3, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _)
    iexists _; iexact H3
  · have h0 : ¬cond0_0 (grid0.coords t) := not_first' t hz
    by_cases h1 : cond0_1 (grid0.coords t)
    · rw [show (dat0 V c).leavesExact 3 t = owns (c : Thread nD τ) (ms0_3 t) fullShare ((dat0 V c).after 3 t) from by
        unfold Dat.leavesExact; rw [liveAt0_3 t h1], after0_3]
      rw [outsAt0_C V c t hz h0 h1]
      unfold out0_C_2 out0_C_3 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ h0 h1 (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [Dat.leavesExact_idle (dat0 V c) 3 t (idleAt0_3 t h1) (noFlush0_3 t h1)]
      rw [outsAt0_B V c t hz h0 h1]
      unfold out0_B_2 sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ h0 h1 (iblk0 V c 0 t) (iblk0 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _)
      iexists _; iexact H3

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the resting one back: the scratch cell's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KernelIdeal.UpdateBody.lean ====
/-
  The second kernel region, new_centers = centers - update / (counts + 1), on 50 row blocks of 2000 rows.
  At a grid point the body reads three input blocks (rows [2000 t, 2000 t + 2000) of centers, of the
  scattered update and of the counts column) and stores ONE value into the output block: the pointwise
  term `k1_pay1` of the three blocks. This module states that as the body's triple, gives the region's
  proof data (each input window's buffer holds its block, the output window's buffer the stored term,
  nothing carried from point to point) and discharges the body obligation at every point. Everything is
  stated for ANY buffer contents `V` at the region's entry, so that the host operations before the
  region are never unfolded here.
-/
import proofs.«157468_j50319836840503_1_alg».proof.Proof.Gen.KernelIdeal.Launch
import proofs.«157468_j50319836840503_1_alg».proof.Proof.Gen.KernelIdeal.Skeleton
import proofs.«157468_j50319836840503_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: rows [2000 t, 2000 t + 2000) of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whatever the proof data,
    as long as the array is `V`'s and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 2000 × 256 block and the whole 2000 × 1 column, as the rectangles the body loads and stores through. -/
abbrev rU : Rect S2000x256 := Rect.unit (s := S2000x256) ![0, 0] S2000x256.size inb_S2000x256_S2000x256_0_0
abbrev rUc : Rect S2000x1 := Rect.unit (s := S2000x1) ![0, 0] S2000x1.size inb_S2000x1_S2000x1_0_0

/-- What the body leaves in the output window's buffer: its one store, of the pointwise term of the three input blocks
    (`x0` the centers block, `x1` the update block, `x2` the counts column). -/
def outU (x0 x1 : Vec F S2000x256 .f32) (x2 : Vec F S2000x1 .f32) : Vec F S2000x256 .f32 :=
  View.canon [⟨rU, k1_pay1 (View.ld x2 rUc) (View.ld x0 rU) (View.ld x1 rU)⟩]

/-- The one store covers the output block. -/
theorem coverU (p0 : Vec F S2000x256 .f32) (y : S2000x256.Idx) :
    ∃ pc ∈ ([⟨rU, p0⟩] : List (View.Piece (Elt F) S2000x256 .f32)), y ∈ pc.1.set :=
  View.cover_of_tiled [⟨rU, p0⟩] S2000x256.size (by rfl) y

set_option maxHeartbeats 1000000 in
/-- The body on whole staging memrefs: the inputs' buffers are left as they were and the output's buffer, whatever it held,
    ends at `outU` of the inputs. -/
theorem sound_kernelU (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole) (arg4 : Memref sig .tc .vmem S2000x256 .f32) (harg4 : arg4.IsWhole)
    (x0 x1 : Vec F S2000x256 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outU x0 x1 x2)) -∗ K ⟨⟩))
      ⊢ wp frame (wpE (defs₀ (F := F)) Variants.none c none) E (cc1__update_kernel i arg1 harg1 arg2 harg2 arg3 harg3 arg4 harg4) K := by
  simp only [cc1__update_kernel_eq_skeleton]; unfold cc1__update_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverU _)

/-- The region's proof data on core `c`: the arrays as the region finds them; after the body at point `t` each input
    window's buffer at its block and the output's at `outU` of the three blocks; nothing carried between points;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outU (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = outU (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernelU c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The whole program's run. @main is four items: the host operations that gather centers_batch, the first kernel
  region, the host operations that scale the loss and scatter-add the update and the counts, the second kernel
  region. The buffer contents at each boundary are a fold from the launch memory: a host stretch applies its
  operations; a region replaces its windows' arrays by what its write-backs leave and keeps every other buffer.
  Each region is a record around the thread state "every unscoped buffer at the boundary's contents"; the run's
  post reads every unscoped buffer of the final memory at the last boundary's contents `W4`, from which the
  results and the unchanged arguments are read.
-/
import proofs.«157468_j50319836840503_1_alg».proof.Proof.Gen.KernelIdeal.Launch
import proofs.«157468_j50319836840503_1_alg».proof.Proof.Gen.KernelIdeal.Skeleton
import proofs.«157468_j50319836840503_1_alg».proof.Proof.Gen.KernelIdeal.Points
import proofs.«157468_j50319836840503_1_alg».proof.Proof.Gen.KernelIdeal.Regions
import proofs.«157468_j50319836840503_1_alg».proof.Proof.KernelIdeal.DiffBody
import proofs.«157468_j50319836840503_1_alg».proof.Proof.KernelIdeal.UpdateBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- A buffer no operation of the first host stretch writes is as launched after it; likewise the second stretch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (U1 m ρ) c).arrAt_in 0 rfl _).trans (A_eq0 (U1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (U3 m ρ) c).arrAt_in 0 rfl _).trans (A_eq1 (U3 m ρ) c 0))
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m ρ) c)
    unfold Pipeline.ΦA
    iintro ⟨Hp, -, Hr⟩
    isplitl [Hr]; · iexact Hr
    iexact Hp
  hout c := by
    rw [Pipeline.ownSems0_none]
    refine (hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.KernelIdeal.HostRead.lean ====
/-
  The host stretches read back. Before the first region the host gathers centers_batch = centers[labels] (a label
  below zero is first shifted up by the table's height); between the regions it reshapes the 1 × 1 total to a
  scalar and divides it by 2 and by the batch size, scatter-adds the diff rows into a zero table by label, counts
  the labels by scatter-adding ones, and lays the counts out as a column. Each lemma states one buffer's contents at
  a boundary as that term of the contents one boundary earlier; the regions' arrays are read off the pipeline's
  final arrays.
-/
import proofs.«157468_j50319836840503_1_alg».proof.Proof.KernelIdeal.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- centers_batch: the rows of the centers table that the labels select. -/
def cbOf (cen : (⟨S100000x256, .f32⟩ : BufTy).Contents (Elt F)) (lab : (⟨S262144, .i32⟩ : BufTy).Contents (Elt F)) :
    (⟨S262144x256, .f32⟩ : BufTy).Contents (Elt F) :=
  Host.gather gather_S100000x256_S262144x1_S262144x256_1_0_n_n_0_1_1256 cen
    (broadcastInDim S262144x1 ![0] bcast_S262144_S262144x1_0
      (select (cmpi .slt lab (broadcastInDim S262144 ![] bcast_S_S262144 (constantI S_ 32 0#32)))
        (addi lab (broadcastInDim S262144 ![] bcast_S_S262144 (constantI S_ 32 100000#32))) lab))

/-! ## At the first region's entry -/

set_option maxHeartbeats 2000000 in
theorem W1_v6 (c : Dev nD) : W1 m ρ c (Proc.devRef .tc main_v6)
    = cbOf (m ((c : Thread nD τ).loc main_arg1)) (m ((c : Thread nD τ).loc main_arg2)) := by
  show StableHlo.after hostOps0 (fun b => m (c, b)) (Proc.devRef .tc main_v6) = _
  unfold cbOf
  after_results
  try rfl

theorem W1_arg0 (c : Dev nD) : W1 m ρ c (Proc.devRef .tc main_arg0) = m ((c : Thread nD τ).loc main_arg0) :=
  (W1_of m ρ c main_arg0 (by decide)).trans rfl
theorem W1_arg1 (c : Dev nD) : W1 m ρ c (Proc.devRef .tc main_arg1) = m ((c : Thread nD τ).loc main_arg1) :=
  (W1_of m ρ c main_arg1 (by decide)).trans rfl
theorem W1_arg2 (c : Dev nD) : W1 m ρ c (Proc.devRef .tc main_arg2) = m ((c : Thread nD τ).loc main_arg2) :=
  (W1_of m ρ c main_arg2 (by decide)).trans rfl

/-! ## At the first region's exit -/

theorem W2_v7_0 (c : Dev nD) : W2 m ρ c (Proc.devRef .tc main_v7_0) = (dat0 (U1 m ρ) c).arrAt 2 cfg0.N := W2_arr m ρ c 2
theorem W2_v7_1 (c : Dev nD) : W2 m ρ c (Proc.devRef .tc main_v7_1) = (dat0 (U1 m ρ) c).arrAt 3 cfg0.N := W2_arr m ρ c 3
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)

/-! ## At the second region's entry -/

set_option maxHeartbeats 2000000 in
theorem W3_v10 (c : Dev nD) : W3 m ρ c (Proc.devRef .tc main_v10)
    = Host.divf (Host.divf (shapeCast S_ (W2 m ρ c (Proc.devRef .tc main_v7_1)) shapeCasts_S1x1_S_) (constant S_ .f32 0x40000000#32)) (constant S_ .f32 0x48800000#32) := by
  show StableHlo.after hostOps1 (W2 m ρ c) (Proc.devRef .tc main_v10) = _
  generalize W2 m ρ c = X
  after_results
  try rfl

set_option maxHeartbeats 2000000 in
theorem W3_v13 (c : Dev nD) : W3 m ρ c (Proc.devRef .tc main_v13)
    = Host.scatterAdd scatter_S100000x256_S262144x1_S262144x256_1_0_0_1 (broadcastInDim S100000x256 ![] bcast_S_S100000x256 (constant S_ .f32 0x00000000#32))
        (broadcastInDim S262144x1 ![0] bcast_S262144_S262144x1_0 (W2 m ρ c (Proc.devRef .tc main_arg2))) (W2 m ρ c (Proc.devRef .tc main_v7_0)) := by
  show StableHlo.after hostOps1 (W2 m ρ c) (Proc.devRef .tc main_v13) = _
  generalize W2 m ρ c = X
  after_results
  try rfl

set_option maxHeartbeats 2000000 in
theorem W3_v17 (c : Dev nD) : W3 m ρ c (Proc.devRef .tc main_v17)
    = Host.scatterAdd scatter_S100000_S262144x1_S262144_n_0_0_1 (broadcastInDim S100000 ![] bcast_S_S100000 (constant S_ .f32 0x00000000#32))
        (broadcastInDim S262144x1 ![0] bcast_S262144_S262144x1_0 (W2 m ρ c (Proc.devRef .tc main_arg2)))
        (broadcastInDim S262144 ![] bcast_S_S262144 (constant S_ .f32 0x3F800000#32)) := by
  show StableHlo.after hostOps1 (W2 m ρ c) (Proc.devRef .tc main_v17) = _
  generalize W2 m ρ c = X
  after_results
  try rfl

set_option maxHeartbeats 2000000 in
theorem W3_v18 (c : Dev nD) : W3 m ρ c (Proc.devRef .tc main_v18)
    = shapeCast S100000x1 (W3 m ρ c (Proc.devRef .tc main_v17)) shapeCasts_S100000_S100000x1 := by
  rw [W3_v17]
  show StableHlo.after hostOps1 (W2 m ρ c) (Proc.devRef .tc main_v18) = _
  generalize W2 m ρ c = X
  after_results
  try rfl

theorem W3_arg1 (c : Dev nD) : W3 m ρ c (Proc.devRef .tc main_arg1) = m ((c : Thread nD τ).loc main_arg1) :=
  (W3_of m ρ c main_arg1 (by decide)).trans (W2_arg1 m ρ c)

/-! ## At the end -/

theorem W4_v19 (c : Dev nD) : W4 m ρ c (Proc.devRef .tc main_v19) = (dat1 (U3 m ρ) c).arrAt 3 cfg1.N := W4_arr m ρ c 3
theorem W4_v10 (c : Dev nD) : W4 m ρ c (Proc.devRef .tc main_v10) = W3 m ρ c (Proc.devRef .tc main_v10) :=
  W4_of_ne m ρ c main_v10 (by decide)

end Cert.KernelIdeal.Hand

end
-- ==== Proof.KernelIdeal.DiffPieces.lean ====
/-
  What the three control cases of the first region's body, and the second region's body, leave in their buffers,
  read back from the stores the runs found: the diff output's block is centers_batch - features; the scratch cell
  is the block's sum of squares added to what the cell held on entry (to the zeroed cell at the first point, where
  the reset is stored first and loaded back); at the last point the 1 × 1 output is that same total, loaded back
  from the cell; the second region's output block is centers - update / (counts + 1). Each is the one covering
  store's payload, its loads read through whole buffers.
-/
import proofs.«157468_j50319836840503_1_alg».proof.Proof.KernelIdeal.DiffBody
import proofs.«157468_j50319836840503_1_alg».proof.Proof.KernelIdeal.UpdateBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole-buffer rectangles start at the origin. -/
theorem hz2 : (![0, 0] : Fin 2 → Nat) = fun _ => 0 := funext fun a => by fin_cases a <;> rfl

/-! ## The first point -/

/-- The diff output's block: centers_batch - features. -/
theorem out0_A_2_eq (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) :
    out0_A_2 c i arg1 harg1 arg2 harg2 arg3 harg3 arg4 harg4 arg5 harg5 hc0 hc1 x0 x1 = k0_pay2 x1 x0 := by
  unfold out0_A_2
  rw [View.read_writes_eq_canon _ _ _ (cover0_A_2 c i arg1 harg1 arg2 harg2 arg3 harg3 arg4 harg4 arg5 harg5 hc0 hc1 x0 x1)]
  unfold kernelRun0_A
  dsimp only
  sl_unfold_words
  rw [View.canon_unit_zero hz2]
  simp only [View.readAt_eq_ld, harg1.read_unread, harg2.read_unread, View.ld_unit_zero (S := S4096x256) hz2]

/-- The scratch cell: the reset is stored first and loaded back, so the block's sum of squares is added to the zeroed
    cell, whatever the cell held on entry. -/
theorem sout0_A_0_eq (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x256 .f32) :
    sout0_A_0 c i arg1 harg1 arg2 harg2 arg3 harg3 arg4 harg4 arg5 harg5 hc0 hc1 x0 x1 = k0_pay3 x1 x0 (k0_pay1 (F := F)) := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg1.read_unread, harg2.read_unread, View.ld_unit_zero (S := S4096x256) hz2]

/-! ## A point that is neither first nor last -/

/-- The diff output's block: centers_batch - features. -/
theorem out0_B_2_eq (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) :
    out0_B_2 c i arg1 harg1 arg2 harg2 arg3 harg3 arg4 harg4 arg5 harg5 hc0 hc1 x0 x1 xs0 = k0_pay2 x1 x0 := by
  unfold out0_B_2
  rw [View.read_writes_eq_canon _ _ _ (cover0_B_2 c i arg1 harg1 arg2 harg2 arg3 harg3 arg4 harg4 arg5 harg5 hc0 hc1 x0 x1 xs0)]
  unfold kernelRun0_B
  dsimp only
  rw [View.canon_unit_zero hz2]
  simp only [View.readAt_eq_ld, harg1.read_unread, harg2.read_unread, View.ld_unit_zero (S := S4096x256) hz2]

/-- The scratch cell: the block's sum of squares added to what the cell held on entry. -/
theorem sout0_B_0_eq (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x256 .f32) (xs0 : Vec F S1x1 .f32) :
    sout0_B_0 c i arg1 harg1 arg2 harg2 arg3 harg3 arg4 harg4 arg5 harg5 hc0 hc1 x0 x1 xs0 = k0_pay3 x1 x0 xs0 := by
  unfold sout0_B_0
  rw [View.read_writes_eq_canon _ _ _ (scover0_B_0 c i arg1 harg1 arg2 harg2 arg3 harg3 arg4 harg4 arg5 harg5 hc0 hc1 x0 x1 xs0)]
  unfold kernelRun0_B
  dsimp only
  rw [View.canon_unit_zero hz2]
  simp only [View.readAt_eq_ld, harg1.read_unread, harg2.read_unread, harg5.read_unread,
    View.ld_unit_zero (S := S4096x256) hz2, View.ld_unit_zero (S := S1x1) hz2]

/-! ## The last point -/

/-- The diff output's block: centers_batch - features. -/
theorem out0_C_2_eq (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) :
    out0_C_2 c i arg1 harg1 arg2 harg2 arg3 harg3 arg4 harg4 arg5 harg5 hc0 hc1 x0 x1 xs0 = k0_pay2 x1 x0 := by
  unfold out0_C_2
  rw [View.read_writes_eq_canon _ _ _ (cover0_C_2 c i arg1 harg1 arg2 harg2 arg3 harg3 arg4 harg4 arg5 harg5 hc0 hc1 x0 x1 xs0)]
  unfold kernelRun0_C
  dsimp only
  sl_unfold_words
  rw [View.canon_unit_zero hz2]
  simp only [View.readAt_eq_ld, harg1.read_unread, harg2.read_unread, View.ld_unit_zero (S := S4096x256) hz2]

/-- The scratch cell: the block's sum of squares added to what the cell held on entry. -/
theorem sout0_C_0_eq (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) :
    sout0_C_0 c i arg1 harg1 arg2 harg2 arg3 harg3 arg4 harg4 arg5 harg5 hc0 hc1 x0 x1 xs0 = k0_pay3 x1 x0 xs0 := by
  unfold sout0_C_0
  rw [View.read_writes_eq_canon _ _ _ (scover0_C_0 c i arg1 harg1 arg2 harg2 arg3 harg3 arg4 harg4 arg5 harg5 hc0 hc1 x0 x1 xs0)]
  unfold kernelRun0_C
  dsimp only
  sl_unfold_words
  rw [View.canon_unit_zero hz2]
  simp only [View.readAt_eq_ld, harg1.read_unread, harg2.read_unread, harg5.read_unread,
    View.ld_unit_zero (S := S4096x256) hz2, View.ld_unit_zero (S := S1x1) hz2]

/-- The 1 × 1 output: the total, loaded back from the scratch cell after the accumulation was stored there. -/
theorem out0_C_3_eq (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x256 .f32) (xs0 : Vec F S1x1 .f32) :
    out0_C_3 c i arg1 harg1 arg2 harg2 arg3 harg3 arg4 harg4 arg5 harg5 hc0 hc1 x0 x1 xs0 = k0_pay3 x1 x0 xs0 := by
  unfold out0_C_3
  rw [View.read_writes_eq_canon _ _ _ (cover0_C_3 c i arg1 harg1 arg2 harg2 arg3 harg3 arg4 harg4 arg5 harg5 hc0 hc1 x0 x1 xs0)]
  unfold kernelRun0_C
  dsimp only
  sl_unfold_words
  rw [View.canon_unit_zero hz2, View.readCov_unit_zero (S := S1x1) _ hz2]
  simp only [View.readAt_eq_ld, harg1.read_unread, harg2.read_unread, harg5.read_unread,
    View.ld_unit_zero (S := S4096x256) hz2, View.ld_unit_zero (S := S1x1) hz2]

/-! ## The second region -/

/-- The output block: centers - update / (counts + 1) of the three input blocks. -/
theorem outU_eq (x0 x1 : Vec F S2000x256 .f32) (x2 : Vec F S2000x1 .f32) : outU x0 x1 x2 = k1_pay1 x2 x0 x1 := by
  unfold outU
  rw [View.canon_unit_zero hz2]
  simp only [View.ld_unit_zero (S := S2000x256) hz2, View.ld_unit_zero (S := S2000x1) hz2]

end Cert.KernelIdeal.Hand

end
-- ==== Proof.BridgeLoss.lean ====
/- The loss numerator, joined to the reference's host sum at the ideal instance (every float an extended real).

   The kernel walks 64 blocks of 4096 rows; on each it adds to a one-element accumulator the block's sum of squared
   differences (a sum over the 256 lanes of each row, then over the 4096 rows), the accumulator zeroed before the first
   block. The reference sums the squared differences of the whole 262144 x 256 array in one host reduction from the
   initial value zero. Extended-real addition is a commutative monoid, so the 64 block sums regroup into the one
   sum with no finiteness hypothesis; the one sign difference (the kernel subtracts features from centres, the
   reference centres from features) disappears under the square on every extended real, the infinities included. -/
import proofs.«157468_j50319836840503_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge

open Idealize.ShloMosaic Idealize.ShloMosaic.ValueIdx Cert.KernelIdeal

/-! ## The one extended-real law -/

/-- A difference and its reverse have the same square, on every pair of extended reals: off the infinities it is the
    real identity; with an infinity on either side both differences are infinite, and every product of two equal
    infinities is `⊤`. -/
theorem sub_mul_self_comm (a b : EReal) : (a - b) * (a - b) = (b - a) * (b - a) := by
  induction a using EReal.rec with
  | bot =>
    induction b using EReal.rec with
    | bot => rfl
    | coe y => simp
    | top => simp
  | coe x =>
    induction b using EReal.rec with
    | bot => simp
    | coe y =>
      rw [← EReal.coe_sub, ← EReal.coe_sub, ← EReal.coe_mul, ← EReal.coe_mul]
      exact congrArg _ (by ring)
    | top => simp
  | top =>
    induction b using EReal.rec with
    | bot => simp
    | coe y => simp
    | top => rfl

/-! ## The kernel's payloads read at an index -/

/-- The zeroed accumulator reads `0`: the word `0x00000000` splat, cast to its own shape. -/
theorem pay1_zero : Gen.k0_pay1 (F := Ideal) (ix2 (0 : Fin 1) (0 : Fin 1)) = 0 := by
  unfold Gen.k0_pay1
  refine (congrFun (shapeCast_self _ _) _).trans ?_
  exact Ideal.ofBits_zero_f32

/-- The stored difference at row `r`, lane `q`: the centre minus the feature. -/
theorem pay2_apply (v3 v5 : Vec Ideal S4096x256 .f32) (r : Fin 4096) (q : Fin 256) :
    Gen.k0_pay2 (F := Ideal) v3 v5 (ix2 r q) = v3 (ix2 r q) - v5 (ix2 r q) := by
  unfold Gen.k0_pay2
  exact congrArg (· - v5 (ix2 r q)) (congrFun (shapeCast_self v3 _) (ix2 r q))

/-- A sum over the lanes of a `4096 x 256` vector, at row `r`: the sum over the 256 lane coordinates. -/
theorem laneSum_apply (W : FVec Ideal S4096x256 .f32) (h : S4096x256.Reduces [1] S4096) (hφ : FKind.Formats .f32)
    (hacc : (0x00000000#32 : BitVec 32) = FKind.add.neutral .f32 hφ) (r : Fin 4096) :
    multiReduction .add [1] S4096 W 0x00000000#32 h hφ hacc (ix1 r) = ∑ q : Fin 256, W (ix2 r q) := by
  refine (Ideal.multiReduction_add_single W 0x00000000#32 h hφ hacc (ix1 r)).trans ?_
  show ∑ q : Fin 256, W (h.lift (ix1 r) q) = _
  refine Finset.sum_congr rfl fun q _ => congrArg W (funext fun c => ?_)
  match c with
  | ⟨0, _⟩ => exact Fin.ext rfl
  | ⟨1, _⟩ => exact Fin.ext rfl

/-- A sum over the rows of a `4096 x 1` column, at its one index: the sum over the 4096 row coordinates. -/
theorem rowSum_apply (C : FVec Ideal S4096x1 .f32) (h : S4096x1.Reduces [0] S1) (hφ : FKind.Formats .f32)
    (hacc : (0x00000000#32 : BitVec 32) = FKind.add.neutral .f32 hφ) :
    multiReduction .add [0] S1 C 0x00000000#32 h hφ hacc (ix1 (0 : Fin 1)) = ∑ r : Fin 4096, C (ix2 r (0 : Fin 1)) := by
  refine (Ideal.multiReduction_add_single C 0x00000000#32 h hφ hacc (ix1 (0 : Fin 1))).trans ?_
  show ∑ r : Fin 4096, C (h.lift (ix1 (0 : Fin 1)) r) = _
  refine Finset.sum_congr rfl fun r _ => congrArg C (funext fun c => ?_)
  match c with
  | ⟨0, _⟩ => exact Fin.ext rfl
  | ⟨1, _⟩ => exact Fin.ext rfl

/-- A vector of 4096 reshaped to a column reads, at `(r, 0)`, the vector at `r`: the same row-major position. -/
theorem column4096_apply {α : Type} (x : S4096.Idx → α) (h : S4096.ShapeCasts S4096x1) (r : Fin 4096) :
    shapeCast S4096x1 x h (ix2 r (0 : Fin 1)) = x (ix1 r) :=
  shapeCast_apply x h _ _ (by
    rw [Shape.rowMajor_val_one, Shape.rowMajor_val_two]
    show r.val = r.val * 1 + 0
    omega)

/-- THE BLOCK'S CONTRIBUTION. The accumulator's new value at its one index is its old value plus the sum, over the
    block's 4096 rows and 256 lanes, of the squared difference centre minus feature. -/
theorem pay3_apply (v3 v5 : Vec Ideal S4096x256 .f32) (v13 : Vec Ideal S1x1 .f32) :
    Gen.k0_pay3 (F := Ideal) v3 v5 v13 (ix2 (0 : Fin 1) (0 : Fin 1))
      = v13 (ix2 (0 : Fin 1) (0 : Fin 1))
        + ∑ r : Fin 4096, ∑ q : Fin 256, (v3 (ix2 r q) - v5 (ix2 r q)) * (v3 (ix2 r q) - v5 (ix2 r q)) := by
  unfold Gen.k0_pay3
  -- the cast to the same shape is the identity; the sum of two vectors at an index is the sum of the entries
  refine (congrFun (shapeCast_self _ _) _).trans ?_
  refine congrArg (v13 (ix2 (0 : Fin 1) (0 : Fin 1)) + ·) ?_
  -- the one-element vector cast to `1 x 1` reads its one entry
  refine (shapeCast_a_1a_apply _ _ (0 : Fin 1) (0 : Fin 1)).trans ?_
  -- the sum over the rows of the column of lane sums
  refine (rowSum_apply _ _ _ _).trans ?_
  refine Finset.sum_congr rfl fun r _ => ?_
  refine (column4096_apply _ _ r).trans ?_
  refine (laneSum_apply _ _ _ _ r).trans ?_
  refine Finset.sum_congr rfl fun q _ => ?_
  show Gen.k0_pay2 (F := Ideal) v3 v5 (ix2 r q) * Gen.k0_pay2 (F := Ideal) v3 v5 (ix2 r q) = _
  rw [pay2_apply]

/-! ## Regrouping the rows by blocks -/

/-- Row `4096 t + r` of the array is row `r` of block `t`: quotient and remainder by 4096. -/
def blockRow : Fin 64 × Fin 4096 ≃ Fin 262144 where
  toFun x := ⟨4096 * x.1.val + x.2.val, by omega⟩
  invFun a := (⟨a.val / 4096, by omega⟩, ⟨a.val % 4096, by omega⟩)
  left_inv x := by
    obtain ⟨t, r⟩ := x
    refine Prod.ext (Fin.ext ?_) (Fin.ext ?_)
    · show (4096 * t.val + r.val) / 4096 = t.val
      omega
    · show (4096 * t.val + r.val) % 4096 = r.val
      omega
  right_inv a := Fin.ext (by
    show 4096 * (a.val / 4096) + a.val % 4096 = a.val
    omega)

/-- So a sum over the 262144 rows is the sum over the 64 blocks of the sums over each block's 4096 rows. -/
theorem sum_rows {M : Type*} [AddCommMonoid M] (G : Fin 262144 → M) :
    ∑ a, G a = ∑ t : Fin 64, ∑ r : Fin 4096, G ⟨4096 * t.val + r.val, by omega⟩ := by
  rw [← Equiv.sum_comp blockRow G, Fintype.sum_prod_type]
  rfl

/-! ## The accumulator after the last block is the host's sum -/

/-- THE JOIN. Let the 64 blocks of the gathered centres and of the features be the arrays' rows `4096 t + r`, and
    let the accumulator after each block be the kernel's update of the one before (the first from the zeroed
    accumulator). Then after block 63 it holds the reference's sum of `(feature - centre)²` over the whole array from
    the initial value `0x00000000`. -/
theorem total_eq_reduce (hred : S262144x256.ReducesTo [0, 1] S_) (hS : 0 < S_.numel)
    (cbW fW : FVec Ideal S262144x256 .f32) (cbB fB : Fin 64 → Vec Ideal S4096x256 .f32)
    (hcb : ∀ (t : Fin 64) (r : Fin 4096) (q : Fin 256),
      cbB t (ValueIdx.ix2 r q) = cbW (ValueIdx.ix2 ⟨4096 * t.val + r.val, by omega⟩ q))
    (hf : ∀ (t : Fin 64) (r : Fin 4096) (q : Fin 256),
      fB t (ValueIdx.ix2 r q) = fW (ValueIdx.ix2 ⟨4096 * t.val + r.val, by omega⟩ q))
    (acc : Fin 64 → Vec Ideal S1x1 .f32)
    (h0 : acc 0 = Cert.KernelIdeal.Gen.k0_pay3 (F := Ideal) (cbB 0) (fB 0) (Cert.KernelIdeal.Gen.k0_pay1 (F := Ideal)))
    (hs : ∀ (n : ℕ) (h : n + 1 < 64), acc ⟨n + 1, h⟩
      = Cert.KernelIdeal.Gen.k0_pay3 (F := Ideal) (cbB ⟨n + 1, h⟩) (fB ⟨n + 1, h⟩) (acc ⟨n, by omega⟩)) :
    acc 63 (ValueIdx.ix2 0 0)
      = Host.reduceAdd (F := Ideal) (mulf (subf fW cbW) (subf fW cbW)) (constant (F := Ideal) S_ .f32 0x00000000#32)
          hred hS ValueIdx.ix0 := by
  -- block `t`'s sum of squared differences, and the same indexed by a natural number (zero past the last block)
  let B : Fin 64 → EReal := fun t =>
    ∑ r : Fin 4096, ∑ q : Fin 256, (cbB t (ix2 r q) - fB t (ix2 r q)) * (cbB t (ix2 r q) - fB t (ix2 r q))
  let g : ℕ → EReal := fun n => if h : n < 64 then B ⟨n, h⟩ else 0
  have hg : ∀ (n : ℕ) (h : n < 64), g n = B ⟨n, h⟩ := fun n h => dif_pos h
  -- after block `n` the accumulator holds the first `n + 1` block sums
  have hacc : ∀ (n : ℕ) (h : n < 64), acc ⟨n, h⟩ (ix2 (0 : Fin 1) (0 : Fin 1)) = ∑ i ∈ Finset.range (n + 1), g i := by
    intro n
    induction n with
    | zero =>
      intro h
      have e : acc ⟨0, h⟩ = acc 0 := rfl
      rw [e, h0, pay3_apply, pay1_zero, zero_add, Finset.sum_range_one]
      exact (hg 0 h).symm
    | succ n ih =>
      intro h
      rw [hs n h, pay3_apply, ih (by omega), Finset.sum_range_succ _ (n + 1)]
      exact congrArg (_ + ·) (hg (n + 1) h).symm
  -- so after the last block it holds all 64
  have hL : acc 63 (ix2 (0 : Fin 1) (0 : Fin 1)) = ∑ t : Fin 64, B t := by
    have e : acc 63 = acc ⟨63, by omega⟩ := rfl
    rw [e, hacc 63 (by omega), ← Fin.sum_univ_eq_sum_range g 64]
    exact Finset.sum_congr rfl fun t _ => hg t.val t.isLt
  -- the host's sum is the initial value plus the sum over every index of the array
  have hR : Host.reduceAdd (F := Ideal) (mulf (subf fW cbW) (subf fW cbW)) (constant (F := Ideal) S_ .f32 0x00000000#32)
        hred hS ix0 = ∑ t : Fin 64, B t := by
    show Ideal.hostReduceAdd hred (mulf (subf fW cbW) (subf fW cbW))
        (constant (F := Ideal) S_ .f32 0x00000000#32 (Shape.Idx.first hS)) ix0 = _
    refine (Ideal.hostReduceAdd_total hred (fun b => b.elim0) _ _ ix0).trans ?_
    show Ideal.ofBits .f32 0x00000000#32 + ∑ i : S262144x256.Idx, (fW i - cbW i) * (fW i - cbW i) = _
    rw [Ideal.ofBits_zero_f32, zero_add]
    -- by coordinates, then the rows by blocks
    refine (sum_idx2 (n0 := 262144) (n1 := 256) _).trans ?_
    refine (sum_rows _).trans ?_
    refine Finset.sum_congr rfl fun t _ => Finset.sum_congr rfl fun r _ => Finset.sum_congr rfl fun q _ => ?_
    show _ = (cbB t (ix2 r q) - fB t (ix2 r q)) * (cbB t (ix2 r q) - fB t (ix2 r q))
    rw [hcb t r q, hf t r q]
    exact sub_mul_self_comm _ _
  exact hL.trans hR.symm

end Cert.Bridge

end
-- ==== Proof.KernelIdeal.DiffValues.lean ====
/-
  The first region's arrays after its 64 points, for any contents of the buffers at the region's entry. The diff
  output's array is centers_batch - features, index by index: every point writes its block back, the blocks tile the
  array, and a point's block of each input is the array's rows 4096 t … 4096 t + 4095. The scratch cell after point n
  is the block's sum of squares added to the cell after point n - 1 (to the zeroed cell at point 0); the 1 × 1 output's
  array is written once, at the last point, with the cell's final value, which is the reference's sum over the whole
  array.
-/
import proofs.«157468_j50319836840503_1_alg».proof.Proof.KernelIdeal.DiffPieces
import proofs.«157468_j50319836840503_1_alg».proof.Proof.BridgeLoss
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

section Generic

variable (V : (c : Dev nD) → (b : Ref sig .tc) → Buf (Elt F) ((c : Thread nD τ).loc b))

/-! ## What the buffers hold after each point -/

/-- A point of the grid is below 64. -/
theorem point_lt (t : Fin cfg0.N) : t.val < 64 := lt_of_lt_of_eq t.isLt (show cfg0.N = 64 from N_0)

/-- After any point the diff output's buffer holds centers_batch - features of the point's blocks. -/
theorem outsAt0_diff (c : Dev nD) (t : Fin cfg0.N) :
    (outsAt0 V c t.val t.isLt).1 = k0_pay2 (iblk0 V c 1 t) (iblk0 V c 0 t) := by
  have hN := point_lt t
  by_cases hz : t.val = 0
  · have h0 : cond0_0 (grid0.coords t) := (hcond0_0 t).mpr (by omega)
    have h1 : ¬cond0_1 (grid0.coords t) := fun h => by have := (hcond0_1 t).mp h; omega
    rw [outsAt0_A V c t hz h0 h1]
    dsimp only
    exact out0_A_2_eq c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t)
  · have h0 : ¬cond0_0 (grid0.coords t) := not_first' t hz
    by_cases h1 : cond0_1 (grid0.coords t)
    · rw [outsAt0_C V c t hz h0 h1]
      dsimp only
      exact out0_C_2_eq c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) _
    · rw [outsAt0_B V c t hz h0 h1]
      dsimp only
      exact out0_B_2_eq c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) _

/-- After the first point the scratch cell holds the first block's sum of squares added to the zeroed cell. -/
theorem outsAt0_acc_zero (c : Dev nD) (h : 0 < cfg0.N) :
    (outsAt0 V c 0 h).2.2 = k0_pay3 (iblk0 V c 1 ⟨0, h⟩) (iblk0 V c 0 ⟨0, h⟩) (k0_pay1 (F := F)) :=
  sout0_A_0_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr (Nat.zero_mod _)) (first_not_last h) (iblk0 V c 0 ⟨0, h⟩) (iblk0 V c 1 ⟨0, h⟩)

/-- After a later point it holds that point's block's sum of squares added to what the point before left. -/
theorem outsAt0_acc_succ (c : Dev nD) (n : ℕ) (h : n + 1 < cfg0.N) :
    (outsAt0 V c (n + 1) h).2.2
      = k0_pay3 (iblk0 V c 1 ⟨n + 1, h⟩) (iblk0 V c 0 ⟨n + 1, h⟩) (outsAt0 V c n (Nat.lt_of_succ_lt h)).2.2 := by
  have hz : (⟨n + 1, h⟩ : Fin cfg0.N).val ≠ 0 := Nat.succ_ne_zero n
  have h0 : ¬cond0_0 (grid0.coords ⟨n + 1, h⟩) := not_first n h
  by_cases h1 : cond0_1 (grid0.coords ⟨n + 1, h⟩)
  · have e := outsAt0_C V c ⟨n + 1, h⟩ hz h0 h1
    dsimp only at e
    rw [e]
    dsimp only
    exact sout0_C_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) h0 h1 (iblk0 V c 0 ⟨n + 1, h⟩) (iblk0 V c 1 ⟨n + 1, h⟩) _
  · have e := outsAt0_B V c ⟨n + 1, h⟩ hz h0 h1
    dsimp only at e
    rw [e]
    dsimp only
    exact sout0_B_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) h0 h1 (iblk0 V c 0 ⟨n + 1, h⟩) (iblk0 V c 1 ⟨n + 1, h⟩) _

/-- At the last point the 1 × 1 output's buffer holds what the scratch cell holds: the total, loaded back from it. -/
theorem outsAt0_total (c : Dev nD) (t : Fin cfg0.N) (ht : t.val % 64 = 63) :
    (outsAt0 V c t.val t.isLt).2.1 = (outsAt0 V c t.val t.isLt).2.2 := by
  have hN := point_lt t
  have hz : t.val ≠ 0 := by omega
  have h0 : ¬cond0_0 (grid0.coords t) := not_first' t hz
  have h1 : cond0_1 (grid0.coords t) := (hcond0_1 t).mpr ht
  rw [outsAt0_C V c t hz h0 h1]
  dsimp only
  exact (out0_C_3_eq c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) _).trans
    (sout0_C_0_eq c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) _).symm

/-! ## A point's input blocks are rows of the arrays -/

/-- The printed index maps over the grid: at point `t` every window of the three full-size arrays is at block row `t`,
    block column 0. -/
theorem idx0 : ∀ t : Fin cfg0.N, win0_0.index t 0 = t.val ∧ win0_0.index t 1 = 0
    ∧ win0_1.index t 0 = t.val ∧ win0_1.index t 1 = 0 ∧ win0_2.index t 0 = t.val ∧ win0_2.index t 1 = 0 :=
  (by decide +kernel : ∀ t : Fin grid0.N, _)

/-- Row `4096 t + r` is a row of the array. -/
theorem row_lt (t : Fin cfg0.N) (r : Fin 4096) : 4096 * t.val + r.val < 262144 := by
  have := point_lt t; omega

/-- The features' block at point `t`, row `r`, lane `q`, is the features array at row `4096 t + r`. -/
theorem iblk0_0_apply (c : Dev nD) (t : Fin cfg0.N) (r : Fin 4096) (q : Fin 256) :
    (iblk0 V c 0 t : Vec F S4096x256 .f32) (ix2 r q)
      = (V c main_arg0 : S262144x256.Idx → Elt F .f32) (ix2 ⟨4096 * t.val + r.val, row_lt t r⟩ q) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 4096 + 1 * r.val = 4096 * t.val + r.val; rw [e0]; omega
  | ⟨1, _⟩ => show win0_0.index t 1 * 256 + 1 * q.val = q.val; rw [e1]; omega

/-- The gathered centers' block likewise. -/
theorem iblk0_1_apply (c : Dev nD) (t : Fin cfg0.N) (r : Fin 4096) (q : Fin 256) :
    (iblk0 V c 1 t : Vec F S4096x256 .f32) (ix2 r q)
      = (V c main_v6 : S262144x256.Idx → Elt F .f32) (ix2 ⟨4096 * t.val + r.val, row_lt t r⟩ q) := by
  obtain ⟨-, -, e0, e1, -⟩ := idx0 t
  unfold iblk0
  rw [View.read_apply]
  show V c main_v6 _ = V c main_v6 _
  congr 1
  funext a
  apply Fin.ext
  match a with
  | ⟨0, _⟩ => show win0_1.index t 0 * 4096 + 1 * r.val = 4096 * t.val + r.val; rw [e0]; omega
  | ⟨1, _⟩ => show win0_1.index t 1 * 256 + 1 * q.val = q.val; rw [e1]; omega

/-! ## The diff output's array after the region -/

/-- The stored difference is the pointwise difference of the two blocks. -/
theorem pay2_eq (v3 v5 : Vec F S4096x256 .f32) : k0_pay2 v3 v5 = subf v3 v5 := by
  unfold k0_pay2
  exact congrArg (fun a => subf a v5) (shapeCast_self v3 _)

/-- What point `t` writes back to the diff output's array is block `t` of centers_batch - features. -/
theorem flushed0_2_eq (c : Dev nD) (t : Fin cfg0.N) :
    (dat0 V c).flushed 2 t
      = ((cfg0.win 2).blk t).view.read (Elt F) (subf (V c main_v6 : FVec F S262144x256 .f32) (V c main_arg0)) := by
  show (cfg0.win 2).cut (grid0.coords t) ((dat0 V c).after 2 t) = _
  rw [after0_2, outsAt0_diff, pay2_eq]
  obtain ⟨-, -, -, -, e0, e1⟩ := idx0 t
  refine funext fun (j : S4096x256.Idx) => ?_
  obtain ⟨r, q, rfl⟩ : ∃ (r : Fin 4096) (q : Fin 256), j = ix2 r q := ⟨j 0, j 1, eq_ix2 j⟩
  have hk : ((cfg0.win 2).blk t).view.emb (ix2 r q) = ix2 ⟨4096 * t.val + r.val, row_lt t r⟩ q := by
    funext a
    apply Fin.ext
    match a with
    | ⟨0, _⟩ => show win0_2.index t 0 * 4096 + 1 * r.val = 4096 * t.val + r.val; rw [e0]; omega
    | ⟨1, _⟩ => show win0_2.index t 1 * 256 + 1 * q.val = q.val; rw [e1]; omega
  show FloatOps.subf ((iblk0 V c 1 t : Vec F S4096x256 .f32) (ix2 r q)) ((iblk0 V c 0 t : Vec F S4096x256 .f32) (ix2 r q))
      = FloatOps.subf ((V c main_v6 : S262144x256.Idx → Elt F .f32) (((cfg0.win 2).blk t).view.emb (ix2 r q)))
          ((V c main_arg0 : S262144x256.Idx → Elt F .f32) (((cfg0.win 2).blk t).view.emb (ix2 r q)))
  rw [hk, iblk0_0_apply, iblk0_1_apply]

/-- An index of the array is in point `t`'s block iff each coordinate is in the block's range on its axis. -/
theorem mem_blk0_2 (t : Fin cfg0.N) (i : S262144x256.Idx) :
    i ∈ ((cfg0.win 2).blk t).view.set
      ↔ ∀ a : Fin 2, win0_2.index t a * S4096x256.size a ≤ (i a).val
          ∧ (i a).val < win0_2.index t a * S4096x256.size a + S4096x256.size a := by
  show i ∈ ((View.whole main_v7_0).slice (win0_2.rect t)).set ↔ _
  rw [View.set_slice_whole, Rect.mem_set_unit]
  exact Iff.rfl

/-- Row `R` of the array is in the block of point `R / 4096`, and every point writes its block back. -/
theorem covered0_2 (i : S262144x256.Idx) :
    ∃ t : Fin cfg0.N, (cfg0.win 2).flush t = true ∧ i ∈ ((cfg0.win 2).blk t).view.set := by
  have hi0 : (i 0).val < 262144 := (i 0).isLt
  have hi1 : (i 1).val < 256 := (i 1).isLt
  obtain ⟨t, ht⟩ : ∃ t : Fin cfg0.N, t.val = (i 0).val / 4096 :=
    ⟨⟨(i 0).val / 4096, by rw [show cfg0.N = 64 from N_0]; omega⟩, rfl⟩
  obtain ⟨-, -, -, -, e0, e1⟩ := idx0 t
  refine ⟨t, flush0_2 t, ?_⟩
  rw [mem_blk0_2]
  intro a
  match a with
  | ⟨0, _⟩ =>
    show win0_2.index t 0 * 4096 ≤ (i 0).val ∧ (i 0).val < win0_2.index t 0 * 4096 + 4096
    rw [e0]; omega
  | ⟨1, _⟩ =>
    show win0_2.index t 1 * 256 ≤ (i 1).val ∧ (i 1).val < win0_2.index t 1 * 256 + 256
    rw [e1]; omega

/-- THE DIFF OUTPUT after the region: centers_batch - features, whatever the array held before. -/
theorem final0_2 (c : Dev nD) :
    (dat0 V c).arrAt 2 cfg0.N = subf (V c main_v6 : FVec F S262144x256 .f32) (V c main_arg0) :=
  (dat0 V c).arrAt_eq_of_cover 2 _ (fun t _ => flushed0_2_eq V c t) covered0_2

/-! ## The 1 × 1 output's array after the region -/

/-- The 1 × 1 output's one block sits at the origin at every point. -/
theorem idx0_3 : ∀ t : Fin cfg0.N, win0_3.index t 0 = 0 ∧ win0_3.index t 1 = 0 :=
  (by decide +kernel : ∀ t : Fin grid0.N, _)

/-- What the buffers hold after a point depends on the point's number only. -/
theorem outsAt0_congr (c : Dev nD) {a b : ℕ} (hab : a = b) (ha : a < cfg0.N) (hb : b < cfg0.N) :
    outsAt0 V c a ha = outsAt0 V c b hb := by
  subst hab; rfl

/-- The 1 × 1 output's array after the region is what the scratch cell holds after a point numbered 63: it is written
    back once, at that point, through the block at the origin, which is the whole array. -/
theorem arr0_3_eq (c : Dev nD) (tL : Fin cfg0.N) (htL : tL.val = 63) :
    (dat0 V c).arrAt 3 cfg0.N = (outsAt0 V c tL.val tL.isLt).2.2 := by
  obtain ⟨e0, e1⟩ := idx0_3 tL
  refine (dat0 V c).arrAt_eq_of_cover 3 _ (fun t hf => ?_) (fun i => ⟨tL, (flush0_3 tL).mpr (by omega), ?_⟩)
  · have h63 : t.val % 64 = 63 := (flush0_3 t).mp hf
    have hN := point_lt t
    obtain rfl : t = tL := Fin.ext (by omega)
    show (cfg0.win 3).cut (grid0.coords t) ((dat0 V c).after 3 t) = _
    rw [after0_3, outsAt0_total V c t h63]
    have hz' : (fun a => win0_3.index t a * main_v7_1.ty.shape.size a) = fun _ => 0 := funext fun a => by
      match a with
      | ⟨0, _⟩ => show win0_3.index t 0 * 1 = 0; rw [e0]
      | ⟨1, _⟩ => show win0_3.index t 1 * 1 = 0; rw [e1]
    exact (Memref.read_access_unit_zero (Elt F) main_v7_1 hz' (fun a => by rw [congrFun hz' a]; simp) _).symm
  · show i ∈ ((View.whole main_v7_1).slice (win0_3.rect tL)).set
    rw [View.set_slice_whole, Rect.mem_set_unit]
    intro a
    have h0 : (i 0 : ℕ) < 1 := (i 0).isLt
    have h1 : (i 1 : ℕ) < 1 := (i 1).isLt
    match a with
    | ⟨0, _⟩ =>
      show win0_3.index tL 0 * 1 ≤ (i 0 : ℕ) ∧ (i 0 : ℕ) < win0_3.index tL 0 * 1 + 1
      rw [e0]; omega
    | ⟨1, _⟩ =>
      show win0_3.index tL 1 * 1 ≤ (i 1 : ℕ) ∧ (i 1 : ℕ) < win0_3.index tL 1 * 1 + 1
      rw [e1]; omega

end Generic

/-! ## At the ideal instance: the 1 × 1 output is the reference's sum -/

section AtIdeal

variable (V : (c : Dev nD) → (b : Ref sig .tc) → Buf (Elt Ideal) ((c : Thread nD τ).loc b))

/-- A `1 × 1` array reshaped to a scalar reads its one entry. -/
theorem scalar_of_1x1 {α : Type} (x : S1x1.Idx → α) (h : S1x1.ShapeCasts S_) :
    shapeCast S_ x h ix0 = x (ix2 (0 : Fin 1) (0 : Fin 1)) :=
  shapeCast_apply x h _ _ (by
    have h1 : S_.numel = 1 := by decide
    have hlt := (S_.rowMajor ix0).isLt
    rw [Shape.rowMajor_val_two]
    show 0 * 1 + 0 = (S_.rowMajor ix0).val
    omega)

/-- THE LOSS NUMERATOR after the region, reshaped to a scalar, is the reference's sum of (features - centers_batch)²
    over the whole array from the initial value zero. -/
theorem final0_3 (c : Dev nD) (hcast : S1x1.ShapeCasts S_) (hred : S262144x256.ReducesTo [0, 1] S_) (hS : 0 < S_.numel) :
    shapeCast S_ ((dat0 (F := Ideal) V c).arrAt 3 cfg0.N) hcast
      = Host.reduceAdd (F := Ideal)
          (mulf (subf (V c main_arg0 : FVec Ideal S262144x256 .f32) (V c main_v6))
            (subf (V c main_arg0 : FVec Ideal S262144x256 .f32) (V c main_v6)))
          (constant (F := Ideal) S_ .f32 0x00000000#32) hred hS := by
  have hN : cfg0.N = 64 := N_0
  -- a point numbered 63, kept symbolic
  obtain ⟨tL, htL⟩ : ∃ tL : Fin cfg0.N, tL.val = 63 := ⟨⟨63, by rw [hN]; omega⟩, rfl⟩
  -- the scratch cell after each point, as a function of the point's number below 64
  obtain ⟨acc, hacc⟩ : ∃ acc : Fin 64 → Vec Ideal S1x1 .f32,
      ∀ t : Fin 64, acc t = (outsAt0 V c t.val (lt_of_lt_of_eq t.isLt hN.symm)).2.2 := ⟨_, fun _ => rfl⟩
  have hlast : (outsAt0 V c tL.val tL.isLt).2.2 = acc 63 := by
    rw [hacc 63]
    exact congrArg (fun p => p.2.2) (outsAt0_congr V c (htL.trans rfl) _ _)
  funext i
  obtain rfl : i = ix0 := eq_ix0 i
  rw [arr0_3_eq V c tL htL, hlast]
  refine (scalar_of_1x1 (acc 63) hcast).trans ?_
  refine Cert.Bridge.total_eq_reduce hred hS (V c main_v6) (V c main_arg0)
    (fun t => (iblk0 V c 1 ⟨t.val, lt_of_lt_of_eq t.isLt hN.symm⟩ : Vec Ideal S4096x256 .f32))
    (fun t => (iblk0 V c 0 ⟨t.val, lt_of_lt_of_eq t.isLt hN.symm⟩ : Vec Ideal S4096x256 .f32))
    (fun t r q => iblk0_1_apply V c ⟨t.val, lt_of_lt_of_eq t.isLt hN.symm⟩ r q)
    (fun t r q => iblk0_0_apply V c ⟨t.val, lt_of_lt_of_eq t.isLt hN.symm⟩ r q)
    acc ?_ ?_
  · rw [hacc 0]
    exact outsAt0_acc_zero V c _
  · intro n h
    rw [hacc ⟨n + 1, h⟩, hacc ⟨n, by omega⟩]
    exact outsAt0_acc_succ V c n _

end AtIdeal

end Cert.KernelIdeal.Hand

end
-- ==== Proof.BridgeCenters.lean ====
/- The centre update, joined to the reference's host terms at the ideal instance (every float an extended real).

   One block of the kernel's second body computes, at row `r` and lane `q`,
   `centres - update / (counts + 1)` with the count read from the block's one column; the reference computes the same
   expression on whole arrays, the count column made by two broadcasts and the literal `1.0` by a broadcast of a
   scalar constant. Read at one index both are `c - u / (n + one)` with `one` the extended real the SAME word
   `0x3F800000` encodes, so they agree as soon as the three operands agree at that index. -/
import proofs.«157468_j50319836840503_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Bridge

open Idealize.ShloMosaic Idealize.ShloMosaic.ValueIdx Cert.KernelIdeal

/-- The reference's last six operations as one term over the centres, the summed update and the counts:
    `centres - update / broadcast (broadcast counts + broadcast 1.0)`, the broadcasts' side conditions as
    hypotheses. -/
def refTail (hb1 : S100000.BroadcastsInDim S100000x1 (![0] : Fin 1 → Fin S100000x1.rank))
    (hb0 : S_.BroadcastsInDim S100000x1 (![] : Fin 0 → Fin S100000x1.rank))
    (hb2 : S100000x1.BroadcastsInDim S100000x256 (![0, 1] : Fin 2 → Fin S100000x256.rank))
    (cen upd : FVec Ideal S100000x256 .f32) (cnt : FVec Ideal S100000 .f32) : FVec Ideal S100000x256 .f32 :=
  subf cen (Host.divf (F := Ideal) upd (broadcastInDim S100000x256 ![0, 1] hb2
    (addf (broadcastInDim S100000x1 ![0] hb1 cnt)
      (broadcastInDim S100000x1 ![] hb0 (constant (F := Ideal) S_ .f32 0x3F800000#32)))))

/-- The reference's term at row `R`, lane `q`: the centre minus the update over the count plus the value of the word
    `0x3F800000`. -/
theorem refTail_apply (hb1 : S100000.BroadcastsInDim S100000x1 (![0] : Fin 1 → Fin S100000x1.rank))
    (hb0 : S_.BroadcastsInDim S100000x1 (![] : Fin 0 → Fin S100000x1.rank))
    (hb2 : S100000x1.BroadcastsInDim S100000x256 (![0, 1] : Fin 2 → Fin S100000x256.rank))
    (cen upd : FVec Ideal S100000x256 .f32) (cnt : FVec Ideal S100000 .f32) (R : Fin 100000) (q : Fin 256) :
    refTail hb1 hb0 hb2 cen upd cnt (ix2 R q)
      = cen (ix2 R q) - Ideal.div (upd (ix2 R q)) (cnt (ix1 R) + Ideal.ofBits .f32 0x3F800000#32) := by
  -- the column of denominators at (R, q) is the sum's entry at (R, 0)
  have h2 : broadcastInDim S100000x256 ![0, 1] hb2
        (addf (broadcastInDim S100000x1 ![0] hb1 cnt)
          (broadcastInDim S100000x1 ![] hb0 (constant (F := Ideal) S_ .f32 0x3F800000#32))) (ix2 R q)
      = (addf (broadcastInDim S100000x1 ![0] hb1 cnt)
          (broadcastInDim S100000x1 ![] hb0 (constant (F := Ideal) S_ .f32 0x3F800000#32))) (ix2 R (0 : Fin 1)) :=
    broadcastInDim_apply _ hb2 _ (ix2 R q) (ix2 R (0 : Fin 1)) (fun a => match a with
      | ⟨0, _⟩ => by show R.val = if (100000 : Nat) = 1 then 0 else R.val; rw [if_neg (by decide)]
      | ⟨1, _⟩ => by show 0 = if (1 : Nat) = 1 then 0 else q.val; rw [if_pos rfl])
  -- the counts' column at (R, 0) is the count of row R
  have h1 : broadcastInDim S100000x1 ![0] hb1 cnt (ix2 R (0 : Fin 1)) = cnt (ix1 R) :=
    broadcastInDim_apply _ hb1 cnt (ix2 R (0 : Fin 1)) (ix1 R) (fun a => match a with
      | ⟨0, _⟩ => by show R.val = if (100000 : Nat) = 1 then 0 else R.val; rw [if_neg (by decide)])
  -- the broadcast scalar reads the scalar
  have h0 : broadcastInDim S100000x1 ![] hb0 (constant (F := Ideal) S_ .f32 0x3F800000#32) (ix2 R (0 : Fin 1))
      = Ideal.ofBits .f32 0x3F800000#32 :=
    broadcastInDim_apply _ hb0 _ (ix2 R (0 : Fin 1)) ix0 (fun a => a.elim0)
  show cen (ix2 R q) - Ideal.div (upd (ix2 R q)) (broadcastInDim S100000x256 ![0, 1] hb2
        (addf (broadcastInDim S100000x1 ![0] hb1 cnt)
          (broadcastInDim S100000x1 ![] hb0 (constant (F := Ideal) S_ .f32 0x3F800000#32))) (ix2 R q)) = _
  refine congrArg (fun d => cen (ix2 R q) - Ideal.div (upd (ix2 R q)) d) (h2.trans ?_)
  show broadcastInDim S100000x1 ![0] hb1 cnt (ix2 R (0 : Fin 1))
      + broadcastInDim S100000x1 ![] hb0 (constant (F := Ideal) S_ .f32 0x3F800000#32) (ix2 R (0 : Fin 1)) = _
  exact congrArg₂ (· + ·) h1 h0

/-- One block of the kernel's centre update at row `r`, lane `q`: the block's centre minus its update over its count
    (read from the block's one column) plus the value of the word `0x3F800000`. -/
theorem pay1_apply (cntB : Vec Ideal S2000x1 .f32) (cenB updB : Vec Ideal S2000x256 .f32) (r : Fin 2000) (q : Fin 256) :
    Cert.KernelIdeal.Gen.k1_pay1 (F := Ideal) cntB cenB updB (ix2 r q)
      = cenB (ix2 r q) - Ideal.div (updB (ix2 r q)) (cntB (ix2 r (0 : Fin 1)) + Ideal.ofBits .f32 0x3F800000#32) := by
  unfold Cert.KernelIdeal.Gen.k1_pay1
  -- the denominators' column broadcast over the lanes reads, at (r, q), its entry at (r, 0)
  have hb : broadcastTo S2000x256
        (addf (shapeCast S2000x1 cntB Cert.KernelIdeal.Gen.shapeCasts_S2000x1_S2000x1 : FVec Ideal S2000x1 .f32)
          (broadcast S2000x1 (Scalar.ofBits (F := Ideal) .f32 0x3F800000#32)))
        Cert.KernelIdeal.Gen.broadcasts_S2000x1_S2000x256 (ix2 r q)
      = (addf (shapeCast S2000x1 cntB Cert.KernelIdeal.Gen.shapeCasts_S2000x1_S2000x1 : FVec Ideal S2000x1 .f32)
          (broadcast S2000x1 (Scalar.ofBits (F := Ideal) .f32 0x3F800000#32))) (ix2 r (0 : Fin 1)) :=
    broadcastTo_apply _ Cert.KernelIdeal.Gen.broadcasts_S2000x1_S2000x256 (ix2 r q) (ix2 r (0 : Fin 1)) (fun a => match a with
      | ⟨0, _⟩ => by show r.val = if (2000 : Nat) = 1 then 0 else r.val; rw [if_neg (by decide)]
      | ⟨1, _⟩ => by show 0 = if (1 : Nat) = 1 then 0 else q.val; rw [if_pos rfl])
  have hc : (shapeCast S2000x1 cntB Cert.KernelIdeal.Gen.shapeCasts_S2000x1_S2000x1 : FVec Ideal S2000x1 .f32) = cntB :=
    shapeCast_self cntB _
  have hu : (shapeCast S2000x256 updB Cert.KernelIdeal.Gen.shapeCasts_S2000x256_S2000x256 : FVec Ideal S2000x256 .f32) = updB :=
    shapeCast_self updB _
  show cenB (ix2 r q) - Ideal.div
      ((shapeCast S2000x256 updB Cert.KernelIdeal.Gen.shapeCasts_S2000x256_S2000x256 : FVec Ideal S2000x256 .f32) (ix2 r q))
      (broadcastTo S2000x256
        (addf (shapeCast S2000x1 cntB Cert.KernelIdeal.Gen.shapeCasts_S2000x1_S2000x1 : FVec Ideal S2000x1 .f32)
          (broadcast S2000x1 (Scalar.ofBits (F := Ideal) .f32 0x3F800000#32)))
        Cert.KernelIdeal.Gen.broadcasts_S2000x1_S2000x256 (ix2 r q)) = _
  refine congrArg₂ (fun u d => cenB (ix2 r q) - Ideal.div u d) (congrFun hu (ix2 r q)) (hb.trans ?_)
  show (shapeCast S2000x1 cntB Cert.KernelIdeal.Gen.shapeCasts_S2000x1_S2000x1 : FVec Ideal S2000x1 .f32) (ix2 r (0 : Fin 1))
      + Ideal.ofBits .f32 0x3F800000#32 = _
  exact congrArg (· + Ideal.ofBits .f32 0x3F800000#32) (congrFun hc (ix2 r (0 : Fin 1)))

/-- THE JOIN. A block of the kernel's centre update, at row `r` and lane `q`, is the reference's term at row `R` and the
    same lane, whenever the block's three operands are the arrays' entries there. -/
theorem pay1_eq_refTail (hb1 : S100000.BroadcastsInDim S100000x1 (![0] : Fin 1 → Fin S100000x1.rank))
    (hb0 : S_.BroadcastsInDim S100000x1 (![] : Fin 0 → Fin S100000x1.rank))
    (hb2 : S100000x1.BroadcastsInDim S100000x256 (![0, 1] : Fin 2 → Fin S100000x256.rank))
    (cen upd : FVec Ideal S100000x256 .f32) (cnt : FVec Ideal S100000 .f32)
    (cntB : Vec Ideal S2000x1 .f32) (cenB updB : Vec Ideal S2000x256 .f32) (r : Fin 2000) (q : Fin 256) (R : Fin 100000)
    (hcen : cenB (ValueIdx.ix2 r q) = cen (ValueIdx.ix2 R q)) (hupd : updB (ValueIdx.ix2 r q) = upd (ValueIdx.ix2 R q))
    (hcnt : cntB (ValueIdx.ix2 r 0) = cnt (ValueIdx.ix1 R)) :
    Cert.KernelIdeal.Gen.k1_pay1 (F := Ideal) cntB cenB updB (ValueIdx.ix2 r q)
      = refTail hb1 hb0 hb2 cen upd cnt (ValueIdx.ix2 R q) := by
  refine (pay1_apply cntB cenB updB r q).trans ((refTail_apply hb1 hb0 hb2 cen upd cnt R q).symm ▸ ?_)
  exact congrArg₂ (· - ·) hcen
    (congrArg₂ Ideal.div hupd (congrArg (· + Ideal.ofBits .f32 0x3F800000#32) hcnt))

/-- A vector reshaped to a column reads, at `(R, 0)`, the vector at `R`: the two indices have the same row-major
    position. -/
theorem column_apply (h : S100000.ShapeCasts S100000x1) (cnt : FVec Ideal S100000 .f32) (R : Fin 100000) :
    shapeCast S100000x1 cnt h (ValueIdx.ix2 R 0) = cnt (ValueIdx.ix1 R) :=
  shapeCast_apply cnt h _ _ (by
    rw [Shape.rowMajor_val_one, Shape.rowMajor_val_two]
    show R.val = R.val * 1 + 0
    omega)

end Cert.Bridge

end
-- ==== Proof.KernelIdeal.UpdateValues.lean ====
/-
  The second region's array after its 50 points, for any contents of the buffers at the region's entry: every point
  writes its block back, the blocks tile the array, a point's block of each input is the array's rows
  2000 t … 2000 t + 1999, and the stored term at a row and a lane is the reference's term there:
  centers - update / (counts + 1), the counts' column being the counts vector reshaped.
-/
import proofs.«157468_j50319836840503_1_alg».proof.Proof.KernelIdeal.DiffPieces
import proofs.«157468_j50319836840503_1_alg».proof.Proof.BridgeCenters
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## A point's input blocks are rows of the arrays -/

/-- A point of the second grid is below 50. -/
theorem point1_lt (t : Fin cfg1.N) : t.val < 50 := lt_of_lt_of_eq t.isLt (show cfg1.N = 50 from N_1)

/-- Row `2000 t + r` is a row of the arrays. -/
theorem row1_lt (t : Fin cfg1.N) (r : Fin 2000) : 2000 * t.val + r.val < 100000 := by
  have := point1_lt t; omega

/-- The printed index maps over the grid: at point `t` every window is at block row `t`, block column 0. -/
theorem idx1 : ∀ t : Fin cfg1.N, win1_0.index t 0 = t.val ∧ win1_0.index t 1 = 0
    ∧ win1_1.index t 0 = t.val ∧ win1_1.index t 1 = 0 ∧ win1_2.index t 0 = t.val ∧ win1_2.index t 1 = 0
    ∧ win1_3.index t 0 = t.val ∧ win1_3.index t 1 = 0 :=
  (by decide +kernel : ∀ t : Fin grid1.N, _)

section Generic

variable (V : (c : Dev nD) → (b : Ref sig .tc) → Buf (Elt F) ((c : Thread nD τ).loc b))

/-- The centers' block at point `t`, row `r`, lane `q`, is the centers array at row `2000 t + r`. -/
theorem iblk1_0_apply (c : Dev nD) (t : Fin cfg1.N) (r : Fin 2000) (q : Fin 256) :
    (iblk1 V c 0 t : Vec F S2000x256 .f32) (ix2 r q)
      = (V c main_arg1 : S100000x256.Idx → Elt F .f32) (ix2 ⟨2000 * t.val + r.val, row1_lt t r⟩ q) := by
  obtain ⟨e0, e1, -⟩ := idx1 t
  unfold iblk1
  rw [View.read_apply]
  show V c main_arg1 _ = V c main_arg1 _
  congr 1
  funext a
  apply Fin.ext
  match a with
  | ⟨0, _⟩ => show win1_0.index t 0 * 2000 + 1 * r.val = 2000 * t.val + r.val; rw [e0]; omega
  | ⟨1, _⟩ => show win1_0.index t 1 * 256 + 1 * q.val = q.val; rw [e1]; omega

/-- The summed update's block likewise. -/
theorem iblk1_1_apply (c : Dev nD) (t : Fin cfg1.N) (r : Fin 2000) (q : Fin 256) :
    (iblk1 V c 1 t : Vec F S2000x256 .f32) (ix2 r q)
      = (V c main_v13 : S100000x256.Idx → Elt F .f32) (ix2 ⟨2000 * t.val + r.val, row1_lt t r⟩ q) := by
  obtain ⟨-, -, e0, e1, -⟩ := idx1 t
  unfold iblk1
  rw [View.read_apply]
  show V c main_v13 _ = V c main_v13 _
  congr 1
  funext a
  apply Fin.ext
  match a with
  | ⟨0, _⟩ => show win1_1.index t 0 * 2000 + 1 * r.val = 2000 * t.val + r.val; rw [e0]; omega
  | ⟨1, _⟩ => show win1_1.index t 1 * 256 + 1 * q.val = q.val; rw [e1]; omega

/-- The counts column's block: row `r` of the block is row `2000 t + r` of the column. -/
theorem iblk1_2_apply (c : Dev nD) (t : Fin cfg1.N) (r : Fin 2000) :
    (iblk1 V c 2 t : Vec F S2000x1 .f32) (ix2 r (0 : Fin 1))
      = (V c main_v18 : S100000x1.Idx → Elt F .f32) (ix2 ⟨2000 * t.val + r.val, row1_lt t r⟩ (0 : Fin 1)) := by
  obtain ⟨-, -, -, -, e0, e1, -⟩ := idx1 t
  unfold iblk1
  rw [View.read_apply]
  show V c main_v18 _ = V c main_v18 _
  congr 1
  funext a
  apply Fin.ext
  match a with
  | ⟨0, _⟩ => show win1_2.index t 0 * 2000 + 1 * r.val = 2000 * t.val + r.val; rw [e0]; omega
  | ⟨1, _⟩ => show win1_2.index t 1 * 1 + 1 * 0 = 0; rw [e1]

/-- An index of the array is in point `t`'s output block iff each coordinate is in the block's range on its axis. -/
theorem mem_blk1_3 (t : Fin cfg1.N) (i : S100000x256.Idx) :
    i ∈ ((cfg1.win 3).blk t).view.set
      ↔ ∀ a : Fin 2, win1_3.index t a * S2000x256.size a ≤ (i a).val
          ∧ (i a).val < win1_3.index t a * S2000x256.size a + S2000x256.size a := by
  show i ∈ ((View.whole main_v19).slice (win1_3.rect t)).set ↔ _
  rw [View.set_slice_whole, Rect.mem_set_unit]
  exact Iff.rfl

/-- Row `R` of the array is in the block of point `R / 2000`, and every point writes its block back. -/
theorem covered1_3 (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, e0, e1⟩ := idx1 t
  refine ⟨t, flush1_3 t, ?_⟩
  rw [mem_blk1_3]
  intro a
  match a with
  | ⟨0, _⟩ =>
    show win1_3.index t 0 * 2000 ≤ (i 0).val ∧ (i 0).val < win1_3.index t 0 * 2000 + 2000
    rw [e0]; omega
  | ⟨1, _⟩ =>
    show win1_3.index t 1 * 256 ≤ (i 1).val ∧ (i 1).val < win1_3.index t 1 * 256 + 256
    rw [e1]; omega

end Generic

/-! ## At the ideal instance: the new centers are the reference's -/

section AtIdeal

variable (V : (c : Dev nD) → (b : Ref sig .tc) → Buf (Elt Ideal) ((c : Thread nD τ).loc b))

/-- What point `t` writes back is block `t` of the reference's term of the three arrays, the counts' column being the
    counts vector reshaped. -/
theorem flushed1_3_eq (c : Dev nD)
    (hb1 : S100000.BroadcastsInDim S100000x1 (![0] : Fin 1 → Fin S100000x1.rank))
    (hb0 : S_.BroadcastsInDim S100000x1 (![] : Fin 0 → Fin S100000x1.rank))
    (hb2 : S100000x1.BroadcastsInDim S100000x256 (![0, 1] : Fin 2 → Fin S100000x256.rank))
    (hsc : S100000.ShapeCasts S100000x1) (cnt : FVec Ideal S100000 .f32)
    (hcnt : (V c main_v18 : S100000x1.Idx → Elt Ideal .f32) = shapeCast S100000x1 cnt hsc) (t : Fin cfg1.N) :
    (dat1 (F := Ideal) V c).flushed 3 t
      = ((cfg1.win 3).blk t).view.read (Elt Ideal)
          (Cert.Bridge.refTail hb1 hb0 hb2 (V c main_arg1) (V c main_v13) cnt) := by
  show (cfg1.win 3).cut (grid1.coords t) ((dat1 V c).after 3 t) = _
  rw [after1_3, outU_eq]
  obtain ⟨-, -, -, -, -, -, e0, e1⟩ := idx1 t
  refine funext fun (j : S2000x256.Idx) => ?_
  obtain ⟨r, q, rfl⟩ : ∃ (r : Fin 2000) (q : Fin 256), j = ix2 r q := ⟨j 0, j 1, eq_ix2 j⟩
  have hk : ((cfg1.win 3).blk t).view.emb (ix2 r q) = ix2 ⟨2000 * t.val + r.val, row1_lt t r⟩ q := by
    funext a
    apply Fin.ext
    match a with
    | ⟨0, _⟩ => show win1_3.index t 0 * 2000 + 1 * r.val = 2000 * t.val + r.val; rw [e0]; omega
    | ⟨1, _⟩ => show win1_3.index t 1 * 256 + 1 * q.val = q.val; rw [e1]; omega
  show k1_pay1 (F := Ideal) (iblk1 V c 2 t) (iblk1 V c 0 t) (iblk1 V c 1 t) (ix2 r q)
      = Cert.Bridge.refTail hb1 hb0 hb2 (V c main_arg1) (V c main_v13) cnt (((cfg1.win 3).blk t).view.emb (ix2 r q))
  rw [hk]
  refine Cert.Bridge.pay1_eq_refTail hb1 hb0 hb2 (V c main_arg1) (V c main_v13) cnt
    (iblk1 V c 2 t) (iblk1 V c 0 t) (iblk1 V c 1 t) r q ⟨2000 * t.val + r.val, row1_lt t r⟩
    (iblk1_0_apply V c t r q) (iblk1_1_apply V c t r q) ((iblk1_2_apply V c t r).trans ?_)
  rw [hcnt]
  exact Cert.Bridge.column_apply hsc cnt ⟨2000 * t.val + r.val, row1_lt t r⟩

/-- THE NEW CENTERS after the region: the reference's centers - update / (counts + 1), whatever the array held. -/
theorem final1_3 (c : Dev nD)
    (hb1 : S100000.BroadcastsInDim S100000x1 (![0] : Fin 1 → Fin S100000x1.rank))
    (hb0 : S_.BroadcastsInDim S100000x1 (![] : Fin 0 → Fin S100000x1.rank))
    (hb2 : S100000x1.BroadcastsInDim S100000x256 (![0, 1] : Fin 2 → Fin S100000x256.rank))
    (hsc : S100000.ShapeCasts S100000x1) (cnt : FVec Ideal S100000 .f32)
    (hcnt : (V c main_v18 : S100000x1.Idx → Elt Ideal .f32) = shapeCast S100000x1 cnt hsc) :
    (dat1 (F := Ideal) V c).arrAt 3 cfg1.N
      = Cert.Bridge.refTail hb1 hb0 hb2 (V c main_arg1) (V c main_v13) cnt :=
  (dat1 V c).arrAt_eq_of_cover 3 _ (fun t _ => flushed1_3_eq V c hb1 hb0 hb2 hsc cnt hcnt t) covered1_3

end AtIdeal

end Cert.KernelIdeal.Hand

end
-- ==== Proof.Results.lean ====
/-
  The idealized kernel's two results as functions of the arguments, in the reference's own terms.
  Loss: the scratch cell's total, reshaped and divided by 2 and by the batch size, is the reference's reduction of
  (features - centers_batch)² divided by the same constants. Updated table: the second region's array is
  centers - update / (counts + 1) index by index, where update is the scatter-add of the first region's diff array
  — the whole-array difference centers_batch - features — and counts the scatter-add of ones: the reference's last
  stage. The two programs spell their gather, scatter and broadcast records separately but identically, so the
  kernel's terms ARE the reference's stages.
-/
import proofs.«157468_j50319836840503_1_alg».proof.Proof.KernelIdeal.HostRead
import proofs.«157468_j50319836840503_1_alg».proof.Proof.KernelIdeal.DiffValues
import proofs.«157468_j50319836840503_1_alg».proof.Proof.KernelIdeal.UpdateValues
import proofs.«157468_j50319836840503_1_alg».proof.Proof.Gen.ReferenceIdeal.Read
import proofs.«157468_j50319836840503_1_alg».proof.Proof.BridgeCenters

set_option maxRecDepth 16384

noncomputable section

namespace Cert.Results

open Idealize.ShloMosaic Idealize.ShloMosaic.TcCoe Idealize.SL.Sem
open Cert.KernelIdeal Cert.KernelIdeal.Gen Cert.KernelIdeal.Hand

/-- The gathered rows are the reference's gather stage. -/
theorem cb_eq (cen : FVec Ideal S100000x256 .f32) (lab : (⟨S262144, .i32⟩ : BufTy).Contents (Elt Ideal)) :
    cbOf (F := Ideal) cen lab = Cert.ReferenceIdeal.Read.val_main_v6 (F := Ideal) cen lab := rfl

/-- The reduction of (features - centers_batch)² divided by 2 and by the batch size is the reference's loss stage. -/
theorem loss_eq (f : FVec Ideal S262144x256 .f32) (cen : FVec Ideal S100000x256 .f32) (lab : (⟨S262144, .i32⟩ : BufTy).Contents (Elt Ideal)) :
    Host.divf (F := Ideal) (Host.divf (F := Ideal) (Host.reduceAdd (F := Ideal) (mulf (subf f (cbOf (F := Ideal) cen lab)) (subf f (cbOf (F := Ideal) cen lab)))
      (constant (F := Ideal) S_ .f32 0x00000000#32) Cert.ReferenceIdeal.Facts₀.reducesTo_S262144x256_S_d0_1 Cert.ReferenceIdeal.Facts₀.h_S_) (constant (F := Ideal) S_ .f32 0x40000000#32)) (constant (F := Ideal) S_ .f32 0x48800000#32)
    = Cert.ReferenceIdeal.Read.val_main_v11 (F := Ideal) f cen lab := by
  rw [cb_eq]; rfl

/-- centers - scatter-add(centers_batch - features) / (scatter-add(ones) + 1), with the column of counts repeated along
    the rows, is the reference's last stage. -/
theorem centers_eq (f : FVec Ideal S262144x256 .f32) (cen : FVec Ideal S100000x256 .f32) (lab : (⟨S262144, .i32⟩ : BufTy).Contents (Elt Ideal)) :
    Cert.Bridge.refTail Cert.ReferenceIdeal.Facts₀.bcast_S100000_S100000x1_0 Cert.ReferenceIdeal.Facts₀.bcast_S_S100000x1 Cert.ReferenceIdeal.Facts₀.bcast_S100000x1_S100000x256_0_1 cen
      (Host.scatterAdd (F := Ideal) scatter_S100000x256_S262144x1_S262144x256_1_0_0_1 (broadcastInDim S100000x256 ![] bcast_S_S100000x256 (constant (F := Ideal) S_ .f32 0x00000000#32))
        (broadcastInDim S262144x1 ![0] bcast_S262144_S262144x1_0 lab) (subf (cbOf (F := Ideal) cen lab) f))
      (Host.scatterAdd (F := Ideal) scatter_S100000_S262144x1_S262144_n_0_0_1 (broadcastInDim S100000 ![] bcast_S_S100000 (constant (F := Ideal) S_ .f32 0x00000000#32))
        (broadcastInDim S262144x1 ![0] bcast_S262144_S262144x1_0 lab) (broadcastInDim S262144 ![] bcast_S_S262144 (constant (F := Ideal) S_ .f32 0x3F800000#32)))
    = Cert.ReferenceIdeal.Read.val_main_v25 (F := Ideal) f cen lab := by
  rw [cb_eq]; rfl

variable (m : (ℓ : Loc nD τ sig) → Buf (Elt Ideal) ℓ) (ρ : Dev nD → PrngReg)

/-- The kernel's loss. -/
theorem kernel_loss (c : Dev nD) : W4 m ρ c (Proc.devRef .tc main_v10)
    = Cert.ReferenceIdeal.Read.val_main_v11 (F := Ideal) (m ((c : Thread nD τ).loc main_arg0)) (m ((c : Thread nD τ).loc main_arg1)) (m ((c : Thread nD τ).loc main_arg2)) := by
  have h3 := final0_3 (U1 m ρ) c shapeCasts_S1x1_S_ Cert.ReferenceIdeal.Facts₀.reducesTo_S262144x256_S_d0_1 Cert.ReferenceIdeal.Facts₀.h_S_
  rw [show U1 m ρ c main_arg0 = m ((c : Thread nD τ).loc main_arg0) from W1_arg0 m ρ c,
    show U1 m ρ c main_v6 = cbOf (m ((c : Thread nD τ).loc main_arg1)) (m ((c : Thread nD τ).loc main_arg2)) from W1_v6 m ρ c] at h3
  rw [W4_v10, W3_v10, W2_v7_1, h3]
  exact loss_eq _ _ _

/-- The kernel's updated table. -/
theorem kernel_centers (c : Dev nD) : W4 m ρ c (Proc.devRef .tc main_v19)
    = Cert.ReferenceIdeal.Read.val_main_v25 (F := Ideal) (m ((c : Thread nD τ).loc main_arg0)) (m ((c : Thread nD τ).loc main_arg1)) (m ((c : Thread nD τ).loc main_arg2)) := by
  have h2 := final0_2 (U1 m ρ) c
  rw [show U1 m ρ c main_arg0 = m ((c : Thread nD τ).loc main_arg0) from W1_arg0 m ρ c,
    show U1 m ρ c main_v6 = cbOf (m ((c : Thread nD τ).loc main_arg1)) (m ((c : Thread nD τ).loc main_arg2)) from W1_v6 m ρ c] at h2
  have h13 : U3 m ρ c main_v13 = Host.scatterAdd (F := Ideal) scatter_S100000x256_S262144x1_S262144x256_1_0_0_1 (broadcastInDim S100000x256 ![] bcast_S_S100000x256 (constant (F := Ideal) S_ .f32 0x00000000#32))
      (broadcastInDim S262144x1 ![0] bcast_S262144_S262144x1_0 (m ((c : Thread nD τ).loc main_arg2)))
      (subf (cbOf (m ((c : Thread nD τ).loc main_arg1)) (m ((c : Thread nD τ).loc main_arg2))) (m ((c : Thread nD τ).loc main_arg0))) := by
    show W3 m ρ c (Proc.devRef .tc main_v13) = _
    rw [W3_v13, W2_arg2, W2_v7_0, h2]
  have h17 : W3 m ρ c (Proc.devRef .tc main_v17) = Host.scatterAdd (F := Ideal) scatter_S100000_S262144x1_S262144_n_0_0_1 (broadcastInDim S100000 ![] bcast_S_S100000 (constant (F := Ideal) S_ .f32 0x00000000#32))
      (broadcastInDim S262144x1 ![0] bcast_S262144_S262144x1_0 (m ((c : Thread nD τ).loc main_arg2))) (broadcastInDim S262144 ![] bcast_S_S262144 (constant (F := Ideal) S_ .f32 0x3F800000#32)) := by
    rw [W3_v17, W2_arg2]
  have h := final1_3 (U3 m ρ) c Cert.ReferenceIdeal.Facts₀.bcast_S100000_S100000x1_0 Cert.ReferenceIdeal.Facts₀.bcast_S_S100000x1 Cert.ReferenceIdeal.Facts₀.bcast_S100000x1_S100000x256_0_1
    shapeCasts_S100000_S100000x1 (W3 m ρ c (Proc.devRef .tc main_v17)) (W3_v18 m ρ c)
  rw [W4_v19, h, h13, show U3 m ρ c main_arg1 = m ((c : Thread nD τ).loc main_arg1) from W3_arg1 m ρ c, h17]
  exact centers_eq _ _ _

end Cert.Results

end
-- ==== Proof.lean ====
/-
  CenterLoss: the loss sum((centers[labels] - features)²) / 2 / B and the updated table
  centers - segment_sum(centers[labels] - features) / (counts + 1), computed by two row-blocked kernels around
  host gathers and scatter-adds, against the plain jnp reference.

  At the ideal instance both programs compute the same two functions of (features, centers, labels). The diff array
  the first kernel writes block by block is the whole-array difference centers_batch - features, which is also what
  the reference scatter-adds. The loss numerator is accumulated block after block in a scratch cell that is reset at
  the first grid point: on the extended reals that running sum is the sum over all entries in any grouping
  (addition is commutative and associative there), and (a - b)·(a - b) = (b - a)·(b - a) for all extended reals, so
  it is the reference's one reduction of (features - centers_batch)²; both sides then divide by the same two
  constants. The updated table is pointwise: each 2000-row block computes centers - update / (counts + 1) with the
  counts column repeated along the rows, which is what the reference's broadcasts give at every index. No finiteness
  of the inputs is needed. The word-level kernel and its idealization run to the end and leave their arguments as
  launched (each region's body is run once per control case; the scratch cell's contents are carried in the region's
  invariant); the ideal pass rewrote nothing, so the idealization conjunct is trivial.
-/
import proofs.«157468_j50319836840503_1_alg».proof.Defs
import proofs.«157468_j50319836840503_1_alg».proof.Proof.Gen.Kernel
import proofs.«157468_j50319836840503_1_alg».proof.Proof.Gen.KernelIdeal
import proofs.«157468_j50319836840503_1_alg».proof.Proof.Gen.ReferenceIdeal
import proofs.«157468_j50319836840503_1_alg».proof.Proof.Gen.ReferenceIdeal.Run
import proofs.«157468_j50319836840503_1_alg».proof.Proof.Gen.ReferenceIdeal.Read
import proofs.«157468_j50319836840503_1_alg».proof.Proof.Gen.Pre_finite_inputs
import proofs.«157468_j50319836840503_1_alg».proof.Proof.Kernel.Run
import proofs.«157468_j50319836840503_1_alg».proof.Proof.KernelIdeal.Run
import proofs.«157468_j50319836840503_1_alg».proof.Proof.Results
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference is a line of host operations: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both idealized programs end with the same two results: the reference's own stages of the arguments. The kernel's side
    reads them off its run's last boundary; the reference's side is its generated run. -/
theorem algebraic : Cert.algebraic_KernelIdeal_ReferenceIdeal := by
  intro m ρ m' ρ' _ hagree
  refine ⟨fun c => Cert.ReferenceIdeal.Read.val_main_v11 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Read.val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun _ h c => ?_) (Cert.KernelIdeal.Hand.run_all m ρ)
    exact ⟨(h c _ (Cert.KernelIdeal.Hand.mem_uc Cert.KernelIdeal.main_v10 (by decide))).trans (Cert.Results.kernel_loss m ρ c),
      (h c _ (Cert.KernelIdeal.Hand.mem_uc Cert.KernelIdeal.main_v19 (by decide))).trans (Cert.Results.kernel_centers m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c)⟩
  · refine (θ_run Cert.ReferenceIdeal.defs _ _).mono (fun _ h c => ?_) (Cert.ReferenceIdeal.Value.run (F := Ideal) m' ρ')
    obtain ⟨h0, h1, h2⟩ := hagree c
    refine ⟨(h c).1.trans ?_, (h c).2.1.trans ?_, (h c).2.2⟩
    · rw [h0, h1, h2]; exact Cert.ReferenceIdeal.Read.val_main_v11_eq _ _ _
    · rw [h0, h1, h2]; exact Cert.ReferenceIdeal.Read.val_main_v25_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
